-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S800000x64 : Shape := ⟨2, ![800000, 64]⟩
abbrev S192x128 : Shape := ⟨2, ![192, 128]⟩
abbrev S128 : Shape := ⟨1, ![128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S192x128 : S_.BroadcastsInDim S192x128 (![] : Fin 0 → Fin S192x128.rank)
  reducesTo_S192x128_S_d0_1 : S192x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg9 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg6 : FVec F S128x128 .f32) (main_arg7 : FVec F S128 .f32) (main_arg8 : FVec F S128x128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_v33

def fn {F : FTy → Type} [FloatOps F] (main_arg0 : FVec F S50000x128 .f32) (main_arg1 : IVec S800000 32) (main_arg2 : IVec S800000 32) (main_arg3 : FVec F S800000x64 .f32) (main_arg4 : FVec F S192x128 .f32) (main_arg5 : FVec F S128 .f32) (main_arg6 : FVec F S128x128 .f32) (main_arg7 : FVec F S128 .f32) (main_arg8 : FVec F S128x128 .f32) (main_arg9 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x64 .f32 := Host.absf main_arg3
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S192x128 .f32 := Host.absf main_arg4
  let main_cst_2 : FVec F S_ .f32 := constant S_ .f32 0x7F800000#32
  let main_v10 : FVec F S192x128 .f32 := broadcastInDim S192x128 ![] bcast_S_S192x128 main_cst_2
  let main_v11 : IVec S192x128 1 := cmpf .olt main_v9 main_v10
  let main_c_3 : IVec S_ 1 := constantI S_ 1 1#1
  let main_v12 : IVec S_ 1 := (fun x v => Host.reduce IntOp.andi x v reducesTo_S192x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_v13 main_v16
-- ==== Kernel.lean ====
abbrev S50000x128 : Shape := ⟨2, ![50000, 128]⟩
abbrev S800000 : Shape := ⟨1, ![800000]⟩
abbrev S800000x64 : Shape := ⟨2, ![800000, 64]⟩
abbrev S192x128 : Shape := ⟨2, ![192, 128]⟩
abbrev S128 : Shape := ⟨1, ![128]⟩
abbrev S128x128 : Shape := ⟨2, ![128, 128]⟩
abbrev S_ : Shape := ⟨0, ![]⟩
abbrev S800000x1 : Shape := ⟨2, ![800000, 1]⟩
abbrev S800000x128 : Shape := ⟨2, ![800000, 128]⟩
abbrev S64x128 : Shape := ⟨2, ![64, 128]⟩
abbrev S1x128 : Shape := ⟨2, ![1, 128]⟩
abbrev S6400x128 : Shape := ⟨2, ![6400, 128]⟩
abbrev S6400x64 : Shape := ⟨2, ![6400, 64]⟩
abbrev S5000x128 : Shape := ⟨2, ![5000, 128]⟩

abbrev nBuf : Space → Nat
  | .hbm => 35
  | .vmem => 19
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000x64, .f32⟩
  | .hbm, ⟨4, _⟩ => ⟨S192x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x128, .f32⟩
  | .hbm, ⟨19, _⟩ => ⟨S128x128, .f32⟩
  | .hbm, ⟨20, _⟩ => ⟨S128x128, .bf16⟩
  | .hbm, ⟨21, _⟩ => ⟨S64x128, .f32⟩
  | .hbm, ⟨22, _⟩ => ⟨S64x128, .bf16⟩
  | .hbm, ⟨23, _⟩ => ⟨S128x128, .bf16⟩
  | .hbm, ⟨24, _⟩ => ⟨S128x128, .bf16⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S800000x128, .bf16⟩
  | .hbm, ⟨29, _⟩ => ⟨S800000x128, .f32⟩
  | .hbm, ⟨30, _⟩ => ⟨S_, .f32⟩
  | .hbm, ⟨31, _⟩ => ⟨S50000x128, .f32⟩
  | .hbm, ⟨32, _⟩ => ⟨S800000x1, .i32⟩
  | .hbm, ⟨33, _⟩ => ⟨S50000x128, .f32⟩
  | .hbm, ⟨34, _⟩ => ⟨S50000x128, .f32⟩
  | .local _ .vmem, ⟨0, _⟩ => ⟨S6400x128, .f32⟩
  | .local _ .vmem, ⟨1, _⟩ => ⟨S6400x128, .f32⟩
  | .local _ .vmem, ⟨2, _⟩ => ⟨S6400x64, .f32⟩
  | .local _ .vmem, ⟨3, _⟩ => ⟨S6400x64, .f32⟩
  | .local _ .vmem, ⟨4, _⟩ => ⟨S128x128, .bf16⟩
  | .local _ .vmem, ⟨5, _⟩ => ⟨S1x128, .f32⟩
  | .local _ .vmem, ⟨6, _⟩ => ⟨S64x128, .bf16⟩
  | .local _ .vmem, ⟨7, _⟩ => ⟨S128x128, .bf16⟩
  | .local _ .vmem, ⟨8, _⟩ => ⟨S1x128, .f32⟩
  | .local _ .vmem, ⟨9, _⟩ => ⟨S6400x128, .bf16⟩
  | .local _ .vmem, ⟨10, _⟩ => ⟨S6400x128, .bf16⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S128x128, .bf16⟩
  | .local _ .vmem, ⟨16, _⟩ => ⟨S1x128, .f32⟩
  | .local _ .vmem, ⟨17, _⟩ => ⟨S5000x128, .f32⟩
  | .local _ .vmem, ⟨18, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem4_1 : DmaSem sig := 18

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S6400x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  slices_S192x128_S128x128_0_0 : S192x128.Slices ![0, 0] S128x128
  bitsLt_bf16_f32 : FTy.bits .bf16 < FTy.bits .f32
  slices_S192x128_S64x128_128_0 : S192x128.Slices ![128, 0] S64x128
  shapeCasts_S128_S1x128 : S128.ShapeCasts S1x128
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  inb_S6400x64_S6400x64_0_0 : ∀ a, (![0, 0] : Fin 2 → Nat) a + S6400x64.size a ≤ S6400x64.size a
  h_S6400x64 : 0 < S6400x64.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6400x128 : S1x128.Broadcasts S6400x128
  packedbf16_S6400x128_S6400x128_0_0 : (Rect.unit (s := S6400x128) ![0, 0] S6400x128.size inb_S6400x128_S6400x128_0_0).PackedRows (EltTy.packing .bf16)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  dot_S6400x128_S128x128_S6400x128_1_0_0_1_n_n_wf : DotDims.WF S6400x128 S128x128 S6400x128 [1] [0] [0] [1] [] []
  dot_S6400x64_S64x128_S6400x128_1_0_0_1_n_n_wf : DotDims.WF S6400x64 S64x128 S6400x128 [1] [0] [0] [1] [] []
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S800000x128.size a
  hwx0_0 : ∀ i : grid0.Coords, EltTy.bits .f32 = 32 ∨ (Rect.block (s := S800000x128) S6400x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x64.size a ≤ S800000x64.size a
  hwx0_1 : ∀ i : grid0.Coords, EltTy.bits .f32 = 32 ∨ (Rect.block (s := S800000x64) S6400x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .bf16 = 32 ∨ (Rect.block (s := S64x128) S64x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S6400x128.size a ≤ S800000x128.size a
  hwx0_7 : ∀ i : grid0.Coords, EltTy.bits .bf16 = 32 ∨ (Rect.block (s := S800000x128) S6400x128.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def dot_S6400x64_S64x128_S6400x128_1_0_0_1_n_n : DotDims S6400x64 S64x128 S6400x128 where
  lhsContracting := [1]
  rhsContracting := [0]
  lhsNonContracting := [0]
  rhsNonContracting := [1]
  lhsBatch := []
  rhsBatch := []
  wf := dot_S6400x64_S64x128_S6400x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v6) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S6400x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16) S6400x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000 : Shape := ⟨1, ![800000]⟩
abbrev S800000x64 : Shape := ⟨2, ![800000, 64]⟩
abbrev S192x128 : Shape := ⟨2, ![192, 128]⟩
abbrev S128 : Shape := ⟨1, ![128]⟩
abbrev S128x128 : Shape := ⟨2, ![128, 128]⟩
abbrev S_ : Shape := ⟨0, ![]⟩
abbrev S800000x1 : Shape := ⟨2, ![800000, 1]⟩
abbrev S800000x128 : Shape := ⟨2, ![800000, 128]⟩
abbrev S800000x192 : Shape := ⟨2, ![800000, 192]⟩
abbrev S1x128 : Shape := ⟨2, ![1, 128]⟩

abbrev nBuf : Space → Nat
  | .hbm => 64
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000x64, .f32⟩
  | .hbm, ⟨4, _⟩ => ⟨S192x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x128, .f32⟩
  | .hbm, ⟨19, _⟩ => ⟨S800000x192, .f32⟩
  | .hbm, ⟨20, _⟩ => ⟨S800000x128, .f32⟩
  | .hbm, ⟨21, _⟩ => ⟨S1x128, .f32⟩
  | .hbm, ⟨22, _⟩ => ⟨S800000x128, .f32⟩
  | .hbm, ⟨23, _⟩ => ⟨S800000x128, .f32⟩
  | .hbm, ⟨24, _⟩ => ⟨S800000x128, .f32⟩
  | .hbm, ⟨25, _⟩ => ⟨S800000x128, .f32⟩
  | .hbm, ⟨26, _⟩ => ⟨S_, .f32⟩
  | .hbm, ⟨27, _⟩ => ⟨S800000x128, .f32⟩
  | .hbm, ⟨28, _⟩ => ⟨S800000x128, .f32⟩
  | .hbm, ⟨29, _⟩ => ⟨S_, .f32⟩
  | .hbm, ⟨30, _⟩ => ⟨S800000x128, .f32⟩
  | .hbm, ⟨31, _⟩ => ⟨S800000x128, .f32⟩
  | .hbm, ⟨32, _⟩ => ⟨S800000x128, .f32⟩
  | .hbm, ⟨33, _⟩ => ⟨S800000x128, .f32⟩
  | .hbm, ⟨34, _⟩ => ⟨S1x128, .f32⟩
  | .hbm, ⟨35, _⟩ => ⟨S800000x128, .f32⟩
  | .hbm, ⟨36, _⟩ => ⟨S800000x128, .f32⟩
  | .hbm, ⟨37, _⟩ => ⟨S800000x128, .f32⟩
  | .hbm, ⟨38, _⟩ => ⟨S800000x128, .f32⟩
  | .hbm, ⟨39, _⟩ => ⟨S_, .f32⟩
  | .hbm, ⟨40, _⟩ => ⟨S800000x128, .f32⟩
  | .hbm, ⟨41, _⟩ => ⟨S800000x128, .f32⟩
  | .hbm, ⟨42, _⟩ => ⟨S_, .f32⟩
  | .hbm, ⟨43, _⟩ => ⟨S800000x128, .f32⟩
  | .hbm, ⟨44, _⟩ => ⟨S800000x128, .f32⟩
  | .hbm, ⟨45, _⟩ => ⟨S800000x128, .f32⟩
  | .hbm, ⟨46, _⟩ => ⟨S_, .f32⟩
  | .hbm, ⟨47, _⟩ => ⟨S50000x128, .f32⟩
  | .hbm, ⟨48, _⟩ => ⟨S800000x1, .i32⟩
  | .hbm, ⟨49, _⟩ => ⟨S50000x128, .f32⟩
  | .hbm, ⟨50, _⟩ => ⟨S50000x128, .f32⟩
  | .hbm, ⟨51, _⟩ => ⟨S50000x128, .f32⟩
  | .hbm, ⟨52, _⟩ => ⟨S1x128, .f32⟩
  | .hbm, ⟨53, _⟩ => ⟨S50000x128, .f32⟩
  | .hbm, ⟨54, _⟩ => ⟨S50000x128, .f32⟩
  | .hbm, ⟨55, _⟩ => ⟨S50000x128, .f32⟩
  | .hbm, ⟨56, _⟩ => ⟨S50000x128, .f32⟩
  | .hbm, ⟨57, _⟩ => ⟨S_, .f32⟩
  | .hbm, ⟨58, _⟩ => ⟨S50000x128, .f32⟩
  | .hbm, ⟨59, _⟩ => ⟨S50000x128, .f32⟩
  | .hbm, ⟨60, _⟩ => ⟨S_, .f32⟩
  | .hbm, ⟨61, _⟩ => ⟨S50000x128, .f32⟩
  | .hbm, ⟨62, _⟩ => ⟨S50000x128, .f32⟩
  | .hbm, ⟨63, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_call1_v0 : Ref sig .tc := ⟨.hbm, 37, rfl⟩
abbrev main_call1_v1 : Ref sig .tc := ⟨.hbm, 38, rfl⟩
abbrev main_call1_cst : Ref sig .tc := ⟨.hbm, 39, rfl⟩
abbrev main_call1_v2 : Ref sig .tc := ⟨.hbm, 40, rfl⟩
abbrev main_call1_v3 : Ref sig .tc := ⟨.hbm, 41, rfl⟩
abbrev main_call1_cst_0 : Ref sig .tc := ⟨.hbm, 42, rfl⟩
abbrev main_call1_v4 : Ref sig .tc := ⟨.hbm, 43, rfl⟩
abbrev main_call1_v5 : Ref sig .tc := ⟨.hbm, 44, rfl⟩
abbrev main_v17 : Ref sig .tc := ⟨.hbm, 45, rfl⟩
abbrev main_cst : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_call2_v0 : Ref sig .tc := ⟨.hbm, 55, rfl⟩
abbrev main_call2_v1 : Ref sig .tc := ⟨.hbm, 56, rfl⟩
abbrev main_call2_cst : Ref sig .tc := ⟨.hbm, 57, rfl⟩
abbrev main_call2_v2 : Ref sig .tc := ⟨.hbm, 58, rfl⟩
abbrev main_call2_v3 : Ref sig .tc := ⟨.hbm, 59, rfl⟩
abbrev main_call2_cst_0 : Ref sig .tc := ⟨.hbm, 60, rfl⟩
abbrev main_call2_v4 : Ref sig .tc := ⟨.hbm, 61, rfl⟩
abbrev main_call2_v5 : Ref sig .tc := ⟨.hbm, 62, rfl⟩
abbrev main_v26 : Ref sig .tc := ⟨.hbm, 63, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x64_S800000x192_d1 : Shape.Concatenates [S800000x128, S800000x64] S800000x192 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  dot_S800000x192_S192x128_S800000x128_1_0_0_1_n_n_wf : DotDims.WF S800000x192 S192x128 S800000x128 [1] [0] [0] [1] [] []
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x192_S192x128_S800000x128_1_0_0_1_n_n : DotDims S800000x192 S192x128 S800000x128 where
  lhsContracting := [1]
  rhsContracting := [0]
  lhsNonContracting := [0]
  rhsNonContracting := [1]
  lhsBatch := []
  rhsBatch := []
  wf := dot_S800000x192_S192x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The whole kernel program, run, with its result named.

  The program is a stretch of host operations, a first kernel region (one grid point per block of 6400 edges), a
  second stretch of host operations and a second kernel region (one grid point per block of 5000 nodes).  Its
  frame certificate follows the contents of every buffer through these four segments: `W0` at launch, `W1`
  after the first stretch, `W2` after the first region (the region's output array replaced by what its grid
  points wrote back, every other buffer untouched), `W3` after the second stretch and `W4` after the second
  region.  When the program returns, every buffer that is not private to a kernel holds `W4`.

  The frame claim keeps of this only that the ten argument arrays end as they were launched.  Here the same run
  is stated once more with what the RESULT buffer ends holding, `W4` at that buffer: the launch of the four
  segments from the initial memory (the launch's ghost element, the first thread state made of what the launch
  deals out, the segments chaining, the last thread state read against the final memory), and then one more
  buffer read off the final contents.
-/
import proofs.«107803_j65420941853353_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from `m` terminates without a fault; the result buffer ends at
    the last boundary's contents `W4`, and the ten argument arrays end as launched. -/
theorem run : θ_run defs (onTc (τ := τ) (main (F := F))) ⟨m, fun _ => 0, ρ⟩ (fun r => ∀ c : Dev nD,
      r.2.mem ((c.tc : Thread nD τ).loc main_v21) = W4 m ρ c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    -- the program is the run of its four segments, each pipeline entered once
    (fun c Q => by rw [main_run m ρ c])
    (by simp only [segs, Pipeline.Seg.pipes_host, Pipeline.Seg.pipes_region, Pipeline.Seg.pipes_nil]; decide)
    -- the cores owe nothing at launch, and no ghost resource is dealt per core beyond the pipelines' cells
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    -- the thread state between segments: every buffer not private to a kernel held at the boundary's contents
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    -- the last thread state against the final memory: every such buffer holds `W4`
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    -- the result buffer is one of them; each argument's contents walk back to the launch memory
    (hQ := fun s h c =>
      ⟨h c _ (mem_uc main_v21 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.Whole

end
-- ==== Proof.Message.lean ====
/-
  One round of message passing over a graph, written on the extended reals, one row at a time.

  An edge carries the feature row `u` (128 entries) of its source node and a feature row `f` (64 entries) of its
  own.  Its message is a two-layer perceptron of the 192 numbers `u ++ f`.  With the first layer's 192 × 128
  weights given as their upper 128 rows `A` and their lower 64 rows `B`:

    mix q     = Σ_{k<128} u k · A k q  +  Σ_{k<64} f k · B k q
    hidden q  = silu ( mix q + b1 q )
    message q = silu ( Σ_{k<128} hidden k · W2 k q  +  b2 q )

  where  silu z = z · 1 / (1 + e^{-z}).  A node with feature row `x` that has received the summed messages `s`
  is updated to

    update q  = silu ( x q + ( Σ_{k<128} s k · W3 k q + b3 q ) ).

  Each function depends on ONE row of every matrix of rows it is given, so a matrix of rows is handled by
  applying it row by row, whatever the number of rows.

  Two facts about these expressions are used later and proved here.  If the 192 numbers are given as ONE row
  `j` and the weights as ONE matrix `W` of 192 rows, the sum over all 192 products is `mix` of the two parts
  (a sum over 192 terms is the sum of its first 128 and of its last 64).  And the three summands of `update`
  may be bracketed from the left.  Both hold for all extended reals, infinite ones included: they use only
  that addition is commutative and associative.
-/
import Idealize.ShloMosaic.PureOps.Ideal

noncomputable section

namespace Cert.Message

open Idealize.ShloMosaic
open scoped BigOperators

/-- `silu z = z · 1 / (1 + e^{-z})`. -/
def silu (z : EReal) : EReal := z * Ideal.logistic z

/-- Row `k` among the upper 128 of 192 rows. -/
def lo (k : Fin 128) : Fin 192 := ⟨k.val, Nat.lt_of_lt_of_le k.isLt (by decide)⟩

/-- Row `128 + k`, the `k`-th among the lower 64 of 192 rows. -/
def hi (k : Fin 64) : Fin 192 := ⟨128 + k.val, by have := k.isLt; omega⟩

theorem lo_val (k : Fin 128) : (lo k).val = k.val := rfl
theorem hi_val (k : Fin 64) : (hi k).val = 128 + k.val := rfl

/-- The first layer before its bias: the source node's row against the upper weights plus the edge's own row
    against the lower weights. -/
def mix (A : Fin 128 → Fin 128 → EReal) (B : Fin 64 → Fin 128 → EReal) (u : Fin 128 → EReal) (f : Fin 64 → EReal)
    (q : Fin 128) : EReal :=
  ∑ k : Fin 128, u k * A k q + ∑ k : Fin 64, f k * B k q

/-- The hidden layer of one edge. -/
def hidden (A : Fin 128 → Fin 128 → EReal) (B : Fin 64 → Fin 128 → EReal) (b1 : Fin 128 → EReal)
    (u : Fin 128 → EReal) (f : Fin 64 → EReal) (q : Fin 128) : EReal :=
  silu (mix A B u f q + b1 q)

/-- The message of one edge. -/
def message (A : Fin 128 → Fin 128 → EReal) (B : Fin 64 → Fin 128 → EReal) (b1 : Fin 128 → EReal)
    (W2 : Fin 128 → Fin 128 → EReal) (b2 : Fin 128 → EReal) (u : Fin 128 → EReal) (f : Fin 64 → EReal)
    (q : Fin 128) : EReal :=
  silu (∑ k : Fin 128, hidden A B b1 u f k * W2 k q + b2 q)

/-- The updated features of one node, from its own row `x` and the sum `s` of the messages it received. -/
def update (W3 : Fin 128 → Fin 128 → EReal) (b3 : Fin 128 → EReal) (x s : Fin 128 → EReal) (q : Fin 128) : EReal :=
  silu (x q + (∑ k : Fin 128, s k * W3 k q + b3 q))

/-- A sum over 192 terms is the sum of the first 128 plus the sum of the last 64. -/
theorem sum_lo_hi (g : Fin 192 → EReal) :
    ∑ k : Fin 192, g k = ∑ k : Fin 128, g (lo k) + ∑ k : Fin 64, g (hi k) :=
  Fin.sum_univ_add (a := 128) (b := 64) g

/-- The 192 numbers as one row `j` against one matrix `W` of 192 rows, when `j` is `u` on the upper rows and
    `f` on the lower ones: `mix` with `W`'s upper and lower rows. -/
theorem mix_of_joined (W : Fin 192 → Fin 128 → EReal) (u : Fin 128 → EReal) (f : Fin 64 → EReal) (j : Fin 192 → EReal)
    (hlo : ∀ k, j (lo k) = u k) (hhi : ∀ k, j (hi k) = f k) (q : Fin 128) :
    ∑ k : Fin 192, j k * W k q = mix (fun k => W (lo k)) (fun k => W (hi k)) u f q := by
  rw [sum_lo_hi (fun k => j k * W k q)]
  unfold mix
  simp only [hlo, hhi]

/-- The node update with its three summands bracketed from the left, `(x + Σ) + b`. -/
theorem update_left (W3 : Fin 128 → Fin 128 → EReal) (b3 : Fin 128 → EReal) (x s : Fin 128 → EReal) (q : Fin 128) :
    silu ((x q + ∑ k : Fin 128, s k * W3 k q) + b3 q) = update W3 b3 x s q := by
  unfold update
  rw [add_assoc]

end Cert.Message

end
-- ==== Proof.LibRowMax.lean ====
/-
  Reading a "subtract the column maximum" expression over a matrix at an index given by its coordinates, for any
  extents a × b.

  * The index over the column coordinate `q` with row coordinate `k` inserted on the first axis is `(k, q)`; hence, on
    the extended reals, a vector maximum along the FIRST axis of an `[a, b]` matrix is the fold of `max` over the row
    coordinate, and the host's maximum along the first axis is the same fold from its initial value; the vector maxima
    kept as a row `[1, b]` and broadcast down the rows again read the column's maximum at every row.
  * The host's keepdims forms: a `[b]` vector placed as the one row of `[1, b]`, that row broadcast down `a` rows, and
    a column `[a, 1]` broadcast across `b` columns.
  * A plain matrix product `[a, k] × [k, b] → [a, b]` (the left operand's last axis contracted with the right
    operand's first): its sum over the contraction index is the sum over `e : Fin k` of `lhs (i, e) * rhs (e, j)`, for
    the vector unit's product into a zero accumulator and for the host's.
-/
import Idealize.ShloMosaic.Lib.ValueLayout
import Idealize.ShloMosaic.Lib.Pipeline.Value
import Idealize.ShloMosaic.PureOps.Ideal.Laws

noncomputable section

namespace Cert.LibRowMax

open Idealize.ShloMosaic Idealize.ShloMosaic.ValueIdx

variable {α : Type} {a b : ℕ}

/-! ## The maximum along the first axis -/

/-- Over the column coordinate `q`, with `k` inserted on the first axis: `(k, q)`. -/
theorem lift_first (h : (⟨2, ![a, b]⟩ : Shape).Reduces [0] ⟨1, ![b]⟩) (q : Fin b) (k : Fin a) :
    h.lift (ix1 q) k = ix2 k q := by
  funext ax
  apply Fin.ext
  match ax with
  | ⟨0, _⟩ => rfl
  | ⟨1, _⟩ => rfl

variable {φ : FTy}

/-- A vector maximum along the first axis, at column `q`: the fold of `max` from the accumulator's value over the rows. -/
theorem multiReduction_max_first (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction .maximumf [0] ⟨1, ![b]⟩ src acc h hφ hacc (ix1 q)
      = (Finset.univ : Finset (Fin a)).fold max (Ideal.ofBits φ acc) fun k => src (ix2 k q) := by
  refine (Ideal.multiReduction_maximumf_single src acc h hφ hacc (ix1 q)).trans ?_
  refine congrArg (Finset.fold max (Ideal.ofBits φ acc) · Finset.univ) (funext fun k => ?_)
  exact congrArg src (lift_first h q k)

/-- The host's maximum along the first axis, at column `q`: the fold of `max` from the initial value over the rows. -/
theorem hostReduce_max_first {u : Shape} (x : (⟨2, ![a, b]⟩ : Shape).Idx → Ideal φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.maximumf (F := Ideal) (φ := φ)) x init h' hu (ix1 q)
      = (Finset.univ : Finset (Fin a)).fold max (init (Shape.Idx.first hu)) fun k => x (ix2 k q) := by
  refine (Host.reduce_eq_fold_single (FloatOps.maximumf (F := Ideal) (φ := φ)) x init h' h hu (ix1 q)).trans ?_
  refine congrArg (Finset.fold max (init (Shape.Idx.first hu)) · Finset.univ) (funext fun k => ?_)
  exact congrArg x (lift_first h q k)

/-- The column maxima kept as one row `[1, b]` and broadcast down `a` rows again read, at `(p, q)`, the maximum of
    column `q`. -/
theorem colMax_broadcastTo_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ (multiReduction .maximumf [0] ⟨1, ![b]⟩ src acc h hφ hacc) hc) hb (ix2 p q)
      = (Finset.univ : Finset (Fin a)).fold max (Ideal.ofBits φ acc) fun k => src (ix2 k q) :=
  (broadcastTo_1b_ab_apply _ hb p q).trans
    ((shapeCast_a_1a_apply _ hc (0 : Fin 1) q).trans (multiReduction_max_first src acc h hφ hacc q))

/-! ## The host's keepdims forms -/

/-- A `[b]` vector placed as the row of `[1, b]` reads, at `(u, q)`, the vector at `q`. -/
theorem broadcastInDim_b_1b_apply (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A `[1, b]` row broadcast down `a` rows reads, at `(p, q)`, the row at `q`. -/
theorem broadcastInDim_1b_ab_apply (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

/-- An `[a, 1]` column broadcast across `b` columns reads, at `(p, q)`, the column's entry in row `p`. -/
theorem broadcastInDim_a1_ab_apply (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-! ## A plain matrix product -/

variable {k : ℕ}

/-- The dimension numbers of a plain product `[a, k] × [k, b] → [a, b]`: no batch axis, the left operand's last axis
    contracted with the right operand's first. -/
abbrev plainDims (a k b : ℕ)
    (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

/-- The left operand's index at output `(i, j)` and contraction coordinate `e` is `(i, e)`. -/
theorem plain_lhsIdx (wf : DotDims.WF ⟨2, ![a, k]⟩ ⟨2, ![k, b]⟩ ⟨2, ![a, b]⟩ [1] [0] [0] [1] [] [])
    (i : Fin a) (j : Fin b) (e : Fin k) :
    (plainDims a k b wf).lhsIdx (ix2 i j) ((contrEquiv1 (plainDims a k b wf) k rfl rfl).symm e) = ix2 i e := by
  funext ax
  apply Fin.ext
  match ax with
  | ⟨0, _⟩ => rfl
  | ⟨1, _⟩ =>
    exact ((plainDims a k b wf).lhsIdx_val_of_single rfl (ix2 i j) _).trans
      (contrEquiv1_symm_val (plainDims a k b wf) k rfl rfl e)

/-- The right operand's index at output `(i, j)` and contraction coordinate `e` is `(e, j)`. -/
theorem plain_rhsIdx (wf : DotDims.WF ⟨2, ![a, k]⟩ ⟨2, ![k, b]⟩ ⟨2, ![a, b]⟩ [1] [0] [0] [1] [] [])
    (i : Fin a) (j : Fin b) (e : Fin k) :
    (plainDims a k b wf).rhsIdx (ix2 i j) ((contrEquiv1 (plainDims a k b wf) k rfl rfl).symm e) = ix2 e j := by
  funext ax
  apply Fin.ext
  match ax with
  | ⟨0, _⟩ =>
    exact ((plainDims a k b wf).rhsIdx_val_of_single rfl (ix2 i j) _).trans
      (contrEquiv1_symm_val (plainDims a k b wf) k rfl rfl e)
  | ⟨1, _⟩ => rfl

/-- The contraction's sum of products, over the contracted coordinate. -/
theorem plain_sum (wf : DotDims.WF ⟨2, ![a, k]⟩ ⟨2, ![k, b]⟩ ⟨2, ![a, b]⟩ [1] [0] [0] [1] [] [])
    (lhs : (⟨2, ![a, k]⟩ : Shape).Idx → EReal) (rhs : (⟨2, ![k, b]⟩ : Shape).Idx → EReal) (i : Fin a) (j : Fin b) :
    ∑ kk : (plainDims a k b wf).contr.Idx,
        lhs ((plainDims a k b wf).lhsIdx (ix2 i j) kk) * rhs ((plainDims a k b wf).rhsIdx (ix2 i j) kk)
      = ∑ e : Fin k, lhs (ix2 i e) * rhs (ix2 e j) := by
  rw [← Equiv.sum_comp (contrEquiv1 (plainDims a k b wf) k rfl rfl).symm]
  refine Finset.sum_congr rfl fun e _ => ?_
  rw [plain_lhsIdx wf i j e, plain_rhsIdx wf i j e]

/-- The vector unit's plain product into a zero accumulator, at `(i, j)`: the sum over `e` of `lhs (i, e) * rhs (e, j)`. -/
theorem matmul_plain_apply {φ₁ φ₂ : FTy} (wf : DotDims.WF ⟨2, ![a, k]⟩ ⟨2, ![k, b]⟩ ⟨2, ![a, b]⟩ [1] [0] [0] [1] [] [])
    (prec : Option ContractPrecision) (lhs : FVec Ideal ⟨2, ![a, k]⟩ φ₁) (rhs : FVec Ideal ⟨2, ![k, b]⟩ φ₂)
    (i : Fin a) (j : Fin b) :
    FloatOps.matmul (plainDims a k b wf) prec lhs rhs (constant ⟨2, ![a, b]⟩ .f32 0x00000000#32) (ix2 i j)
      = ∑ e : Fin k, lhs (ix2 i e) * rhs (ix2 e j) :=
  (Ideal.matmul_constant_zero_apply (plainDims a k b wf) prec lhs rhs (ix2 i j)).trans (plain_sum wf lhs rhs i j)

/-- The host's plain product, at `(i, j)`: the same sum. -/
theorem dotGeneral_plain_apply {φ₁ φ₂ : FTy} (wf : DotDims.WF ⟨2, ![a, k]⟩ ⟨2, ![k, b]⟩ ⟨2, ![a, b]⟩ [1] [0] [0] [1] [] [])
    (prec : Option ContractPrecision) (sched : HostSchedule) (lhs : FVec Ideal ⟨2, ![a, k]⟩ φ₁)
    (rhs : FVec Ideal ⟨2, ![k, b]⟩ φ₂) (i : Fin a) (j : Fin b) :
    FloatOps.dotGeneral (plainDims a k b wf) prec sched lhs rhs (ix2 i j)
      = ∑ e : Fin k, lhs (ix2 i e) * rhs (ix2 e j) :=
  (Ideal.dotGeneral_apply (plainDims a k b wf) prec sched lhs rhs (ix2 i j)).trans (plain_sum wf lhs rhs i j)

end Cert.LibRowMax

end
-- ==== Proof.Blocks.lean ====
/-
  What each of the two kernel bodies stores, read at one entry of the stored block.

  The first body works on a block of 6400 edges.  From the block's rows of source-node features (6400 × 128)
  and of edge features (6400 × 64), the upper weights (128 × 128), the lower weights (64 × 128), the first bias
  (one row of 128), the second layer's weights (128 × 128) and its bias (one row of 128), the entry it stores at
  row `p`, column `q` is `Message.message` of row `p` of the two feature blocks, at `q`: the two matrix products
  into a zero accumulator are the two sums of `Message.mix`, a one-row bias broadcast down the block reads that
  row at `q`, `z · logistic z` is `silu z`, and every change of float format is the identity on extended reals.

  The second body works on a block of 5000 nodes.  From the block's rows of summed messages and of node
  features (5000 × 128 each), the weights (128 × 128) and the bias (one row), the entry it stores at row `p`,
  column `q` is `Message.update` of row `p` of the two blocks, at `q`.
-/
import proofs.«107803_j65420941853353_2_alg».proof.Proof.Gen.KernelIdeal.Skeleton
import proofs.«107803_j65420941853353_2_alg».proof.Proof.Message
import proofs.«107803_j65420941853353_2_alg».proof.Proof.LibRowMax
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Blocks

open Cert.KernelIdeal Cert.KernelIdeal.Gen
open Idealize.ShloMosaic Idealize.ShloMosaic.ValueIdx Cert.Message
open scoped BigOperators

/-! ## The pieces both bodies are made of -/

/-- A product of a 6400 × 128 block with a 128 × 128 matrix into the zero accumulator, at `(p, q)`. -/
theorem prod_6400_128 {φ₁ φ₂ : FTy} (l : FVec Ideal S6400x128 φ₁) (r : FVec Ideal S128x128 φ₂) (p : Fin 6400) (q : Fin 128) :
    FloatOps.matmul dot_S6400x128_S128x128_S6400x128_1_0_0_1_n_n none l r (constant S6400x128 .f32 0x00000000#32) (ix2 p q)
      = ∑ e : Fin 128, l (ix2 p e) * r (ix2 e q) :=
  Cert.LibRowMax.matmul_plain_apply (a := 6400) (k := 128) (b := 128) dot_S6400x128_S128x128_S6400x128_1_0_0_1_n_n_wf none l r p q

/-- A product of a 6400 × 64 block with a 64 × 128 matrix into the zero accumulator, at `(p, q)`. -/
theorem prod_6400_64 {φ₁ φ₂ : FTy} (l : FVec Ideal S6400x64 φ₁) (r : FVec Ideal S64x128 φ₂) (p : Fin 6400) (q : Fin 128) :
    FloatOps.matmul dot_S6400x64_S64x128_S6400x128_1_0_0_1_n_n none l r (constant S6400x128 .f32 0x00000000#32) (ix2 p q)
      = ∑ e : Fin 64, l (ix2 p e) * r (ix2 e q) :=
  Cert.LibRowMax.matmul_plain_apply (a := 6400) (k := 64) (b := 128) dot_S6400x64_S64x128_S6400x128_1_0_0_1_n_n_wf none l r p q

/-- A product of a 5000 × 128 block with a 128 × 128 matrix into the zero accumulator, at `(p, q)`. -/
theorem prod_5000_128 {φ₁ φ₂ : FTy} (l : FVec Ideal S5000x128 φ₁) (r : FVec Ideal S128x128 φ₂) (p : Fin 5000) (q : Fin 128) :
    FloatOps.matmul dot_S5000x128_S128x128_S5000x128_1_0_0_1_n_n none l r (constant S5000x128 .f32 0x00000000#32) (ix2 p q)
      = ∑ e : Fin 128, l (ix2 p e) * r (ix2 e q) :=
  Cert.LibRowMax.matmul_plain_apply (a := 5000) (k := 128) (b := 128) dot_S5000x128_S128x128_S5000x128_1_0_0_1_n_n_wf none l r p q

/-- A one-row bias broadcast down 6400 rows reads, at `(p, q)`, the row at `q`. -/
theorem bias_6400 (v : FVec Ideal S1x128 .f32) (p : Fin 6400) (q : Fin 128) :
    broadcastTo S6400x128 (shapeCast S1x128 v shapeCasts_S1x128_S1x128) broadcasts_S1x128_S6400x128 (ix2 p q)
      = v (ix2 (0 : Fin 1) q) := by
  rw [shapeCast_self]
  exact broadcastTo_1b_ab_apply v broadcasts_S1x128_S6400x128 p q

/-- A one-row bias broadcast down 5000 rows reads, at `(p, q)`, the row at `q`. -/
theorem bias_5000 (v : FVec Ideal S1x128 .f32) (p : Fin 5000) (q : Fin 128) :
    broadcastTo S5000x128 (shapeCast S1x128 v shapeCasts_S1x128_S1x128) broadcasts_S1x128_S5000x128 (ix2 p q)
      = v (ix2 (0 : Fin 1) q) := by
  rw [shapeCast_self]
  exact broadcastTo_1b_ab_apply v broadcasts_S1x128_S5000x128 p q

/-! ## The first body: a block of edges -/

/-- The first layer before `silu`, over a whole block. -/
def pre1 (v0 : FVec Ideal S6400x128 .f32) (v3 : FVec Ideal S6400x64 .f32) (v5 : FVec Ideal S128x128 .bf16)
    (v8 : FVec Ideal S64x128 .bf16) (v12 : FVec Ideal S1x128 .f32) : FVec Ideal S6400x128 .f32 :=
  addf
    (addf
      (FloatOps.matmul dot_S6400x128_S128x128_S6400x128_1_0_0_1_n_n none
        (truncf .bf16 (shapeCast S6400x128 v0 shapeCasts_S6400x128_S6400x128) bitsLt_bf16_f32)
        (shapeCast S128x128 v5 shapeCasts_S128x128_S128x128) (constant S6400x128 .f32 0x00000000#32))
      (FloatOps.matmul dot_S6400x64_S64x128_S6400x128_1_0_0_1_n_n none
        (truncf .bf16 v3 bitsLt_bf16_f32)
        (shapeCast S64x128 v8 shapeCasts_S64x128_S64x128) (constant S6400x128 .f32 0x00000000#32)))
    (broadcastTo S6400x128 (shapeCast S1x128 v12 shapeCasts_S1x128_S1x128) broadcasts_S1x128_S6400x128)

/-- The second layer before `silu`, over a whole block, from the hidden block `h`. -/
def pre2 (h : FVec Ideal S6400x128 .f32) (v19 : FVec Ideal S128x128 .bf16) (v22 : FVec Ideal S1x128 .f32) :
    FVec Ideal S6400x128 .f32 :=
  addf
    (FloatOps.matmul dot_S6400x128_S128x128_S6400x128_1_0_0_1_n_n none
      (truncf .bf16 h bitsLt_bf16_f32)
      (shapeCast S128x128 v19 shapeCasts_S128x128_S128x128) (constant S6400x128 .f32 0x00000000#32))
    (broadcastTo S6400x128 (shapeCast S1x128 v22 shapeCasts_S1x128_S1x128) broadcasts_S1x128_S6400x128)

/-- What the first body stores is the two layers one after the other. -/
theorem stored_edges_eq (v0 : FVec Ideal S6400x128 .f32) (v3 : FVec Ideal S6400x64 .f32) (v5 : FVec Ideal S128x128 .bf16)
    (v8 : FVec Ideal S64x128 .bf16) (v12 : FVec Ideal S1x128 .f32) (v19 : FVec Ideal S128x128 .bf16) (v22 : FVec Ideal S1x128 .f32) :
    k0_pay1 (F := Ideal) v0 v3 v5 v8 v12 v19 v22
      = truncf .bf16
          (mulf (pre2 (mulf (pre1 v0 v3 v5 v8 v12) (logistic (pre1 v0 v3 v5 v8 v12))) v19 v22)
            (logistic (pre2 (mulf (pre1 v0 v3 v5 v8 v12) (logistic (pre1 v0 v3 v5 v8 v12))) v19 v22)))
          bitsLt_bf16_f32 := rfl

/-- The first layer before `silu` at `(p, q)`: `mix` of row `p` of the two feature blocks, plus the bias at `q`. -/
theorem pre1_apply (v0 : FVec Ideal S6400x128 .f32) (v3 : FVec Ideal S6400x64 .f32) (v5 : FVec Ideal S128x128 .bf16)
    (v8 : FVec Ideal S64x128 .bf16) (v12 : FVec Ideal S1x128 .f32) (p : Fin 6400) (q : Fin 128) :
    pre1 v0 v3 v5 v8 v12 (ix2 p q)
      = mix (fun k q => v5 (ix2 k q)) (fun k q => v8 (ix2 k q)) (fun k => v0 (ix2 p k)) (fun k => v3 (ix2 p k)) q
          + v12 (ix2 (0 : Fin 1) q) := by
  unfold pre1
  rw [addf_apply, addf_apply, prod_6400_128, prod_6400_64, bias_6400]
  simp only [shapeCast_self]
  rfl

/-- The hidden block at `(p, q)`. -/
theorem hidden_apply (v0 : FVec Ideal S6400x128 .f32) (v3 : FVec Ideal S6400x64 .f32) (v5 : FVec Ideal S128x128 .bf16)
    (v8 : FVec Ideal S64x128 .bf16) (v12 : FVec Ideal S1x128 .f32) (p : Fin 6400) (q : Fin 128) :
    mulf (pre1 v0 v3 v5 v8 v12) (logistic (pre1 v0 v3 v5 v8 v12)) (ix2 p q)
      = hidden (fun k q => v5 (ix2 k q)) (fun k q => v8 (ix2 k q)) (fun q => v12 (ix2 (0 : Fin 1) q))
          (fun k => v0 (ix2 p k)) (fun k => v3 (ix2 p k)) q := by
  show silu (pre1 v0 v3 v5 v8 v12 (ix2 p q)) = _
  rw [pre1_apply]
  rfl

/-- The second layer before `silu` at `(p, q)`: row `p` of the hidden block against the weights, plus the bias. -/
theorem pre2_apply (h : FVec Ideal S6400x128 .f32) (v19 : FVec Ideal S128x128 .bf16) (v22 : FVec Ideal S1x128 .f32)
    (p : Fin 6400) (q : Fin 128) :
    pre2 h v19 v22 (ix2 p q) = ∑ k : Fin 128, h (ix2 p k) * v19 (ix2 k q) + v22 (ix2 (0 : Fin 1) q) := by
  unfold pre2
  rw [addf_apply, prod_6400_128, bias_6400]
  simp only [shapeCast_self]
  rfl

/-- THE FIRST BODY'S STORE at row `p`, column `q`: the message of the edge in row `p`. -/
theorem stored_edges_apply (v0 : FVec Ideal S6400x128 .f32) (v3 : FVec Ideal S6400x64 .f32) (v5 : FVec Ideal S128x128 .bf16)
    (v8 : FVec Ideal S64x128 .bf16) (v12 : FVec Ideal S1x128 .f32) (v19 : FVec Ideal S128x128 .bf16) (v22 : FVec Ideal S1x128 .f32)
    (p : Fin 6400) (q : Fin 128) :
    k0_pay1 (F := Ideal) v0 v3 v5 v8 v12 v19 v22 (ix2 p q)
      = message (fun k q => v5 (ix2 k q)) (fun k q => v8 (ix2 k q)) (fun q => v12 (ix2 (0 : Fin 1) q))
          (fun k q => v19 (ix2 k q)) (fun q => v22 (ix2 (0 : Fin 1) q))
          (fun k => v0 (ix2 p k)) (fun k => v3 (ix2 p k)) q := by
  rw [stored_edges_eq]
  show silu (pre2 (mulf (pre1 v0 v3 v5 v8 v12) (logistic (pre1 v0 v3 v5 v8 v12))) v19 v22 (ix2 p q)) = _
  rw [pre2_apply]
  unfold message
  refine congrArg silu (congrArg (· + v22 (ix2 (0 : Fin 1) q)) (Finset.sum_congr rfl fun k _ => ?_))
  rw [hidden_apply]

/-- The same at any index of the block: row `j 0`, column `j 1`. -/
theorem stored_edges_at (v0 : FVec Ideal S6400x128 .f32) (v3 : FVec Ideal S6400x64 .f32) (v5 : FVec Ideal S128x128 .bf16)
    (v8 : FVec Ideal S64x128 .bf16) (v12 : FVec Ideal S1x128 .f32) (v19 : FVec Ideal S128x128 .bf16) (v22 : FVec Ideal S1x128 .f32)
    (j : S6400x128.Idx) :
    k0_pay1 (F := Ideal) v0 v3 v5 v8 v12 v19 v22 j
      = message (fun k q => v5 (ix2 k q)) (fun k q => v8 (ix2 k q)) (fun q => v12 (ix2 (0 : Fin 1) q))
          (fun k q => v19 (ix2 k q)) (fun q => v22 (ix2 (0 : Fin 1) q))
          (fun k => v0 (ix2 (j 0) k)) (fun k => v3 (ix2 (j 0) k)) (j 1) := by
  obtain ⟨p, q, rfl⟩ : ∃ (p : Fin 6400) (q : Fin 128), j = ix2 p q := ⟨j 0, j 1, eq_ix2 j⟩
  exact stored_edges_apply v0 v3 v5 v8 v12 v19 v22 p q

/-! ## The second body: a block of nodes -/

/-- The node update before `silu`, over a whole block: the features plus (summed messages × weights + bias). -/
def pre3 (v0 : FVec Ideal S5000x128 .f32) (v3 : FVec Ideal S128x128 .bf16) (v6 : FVec Ideal S1x128 .f32)
    (v10 : FVec Ideal S5000x128 .f32) : FVec Ideal S5000x128 .f32 :=
  addf v10
    (addf
      (FloatOps.matmul dot_S5000x128_S128x128_S5000x128_1_0_0_1_n_n none
        (truncf .bf16 (shapeCast S5000x128 v0 shapeCasts_S5000x128_S5000x128) bitsLt_bf16_f32)
        (shapeCast S128x128 v3 shapeCasts_S128x128_S128x128) (constant S5000x128 .f32 0x00000000#32))
      (broadcastTo S5000x128 (shapeCast S1x128 v6 shapeCasts_S1x128_S1x128) broadcasts_S1x128_S5000x128))

/-- What the second body stores is `silu` of that, entry by entry. -/
theorem stored_nodes_eq (v0 : FVec Ideal S5000x128 .f32) (v3 : FVec Ideal S128x128 .bf16) (v6 : FVec Ideal S1x128 .f32)
    (v10 : FVec Ideal S5000x128 .f32) :
    k1_pay1 (F := Ideal) v0 v3 v6 v10 = mulf (pre3 v0 v3 v6 v10) (logistic (pre3 v0 v3 v6 v10)) := rfl

/-- THE SECOND BODY'S STORE at row `p`, column `q`: the update of the node in row `p`. -/
theorem stored_nodes_apply (v0 : FVec Ideal S5000x128 .f32) (v3 : FVec Ideal S128x128 .bf16) (v6 : FVec Ideal S1x128 .f32)
    (v10 : FVec Ideal S5000x128 .f32) (p : Fin 5000) (q : Fin 128) :
    k1_pay1 (F := Ideal) v0 v3 v6 v10 (ix2 p q)
      = update (fun k q => v3 (ix2 k q)) (fun q => v6 (ix2 (0 : Fin 1) q))
          (fun k => v10 (ix2 p k)) (fun k => v0 (ix2 p k)) q := by
  rw [stored_nodes_eq]
  show silu (pre3 v0 v3 v6 v10 (ix2 p q)) = _
  unfold pre3 update
  rw [addf_apply, addf_apply, prod_5000_128, bias_5000]
  simp only [shapeCast_self]
  rfl

/-- The same at any index of the block: row `j 0`, column `j 1`. -/
theorem stored_nodes_at (v0 : FVec Ideal S5000x128 .f32) (v3 : FVec Ideal S128x128 .bf16) (v6 : FVec Ideal S1x128 .f32)
    (v10 : FVec Ideal S5000x128 .f32) (j : S5000x128.Idx) :
    k1_pay1 (F := Ideal) v0 v3 v6 v10 j
      = update (fun k q => v3 (ix2 k q)) (fun q => v6 (ix2 (0 : Fin 1) q))
          (fun k => v10 (ix2 (j 0) k)) (fun k => v0 (ix2 (j 0) k)) (j 1) := by
  obtain ⟨p, q, rfl⟩ : ∃ (p : Fin 5000) (q : Fin 128), j = ix2 p q := ⟨j 0, j 1, eq_ix2 j⟩
  exact stored_nodes_apply v0 v3 v6 v10 p q

end Cert.KernelIdeal.Blocks

end
-- ==== Proof.Arrays.lean ====
/-
  From blocks to whole arrays: what each region's output array holds when the region is over.

  The first region's grid has 125 points; point `t` reads rows `6400·t … 6400·t + 6399` of the two arrays of
  edge rows, reads the weights and biases whole, and writes back rows `6400·t …` of the output.  By
  `Blocks.stored_edges_at` the row it writes at position `p` of its block is the message of row `p` of the input
  blocks, that is, of row `6400·t + p` of the input arrays.  So every point writes a block of ONE array, the
  array of all edges' messages (`edgeArray`); the 125 blocks tile the 800000 rows; hence the output array IS that
  array.  The same for the second region: 10 points of 5000 node rows each, the output array IS `nodeArray`.

  Both are stated for whatever the region finds in its input arrays (`V`).
-/
import proofs.«107803_j65420941853353_2_alg».proof.Proof.Gen.KernelIdeal.Frame
import proofs.«107803_j65420941853353_2_alg».proof.Proof.Blocks
import Idealize.ShloMosaic.Lib.Pipeline.Value

set_option maxRecDepth 16384

noncomputable section

namespace Cert.KernelIdeal.Arrays

open Cert.KernelIdeal Cert.KernelIdeal.Gen Cert.Message
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-- Two messages are equal when they are messages of equal data. -/
theorem message_congr {A A' : Fin 128 → Fin 128 → EReal} {B B' : Fin 64 → Fin 128 → EReal} {b1 b1' : Fin 128 → EReal}
    {W2 W2' : Fin 128 → Fin 128 → EReal} {b2 b2' : Fin 128 → EReal} {u u' : Fin 128 → EReal} {f f' : Fin 64 → EReal}
    {q q' : Fin 128} (hA : A = A') (hB : B = B') (hb1 : b1 = b1') (hW2 : W2 = W2') (hb2 : b2 = b2') (hu : u = u')
    (hf : f = f') (hq : q = q') : message A B b1 W2 b2 u f q = message A' B' b1' W2' b2' u' f' q' := by
  subst hA hB hb1 hW2 hb2 hu hf hq; rfl

/-- Two node updates are equal when they are updates of equal data. -/
theorem update_congr {W3 W3' : Fin 128 → Fin 128 → EReal} {b3 b3' : Fin 128 → EReal} {x x' s s' : Fin 128 → EReal}
    {q q' : Fin 128} (hW : W3 = W3') (hb : b3 = b3') (hx : x = x') (hs : s = s') (hq : q = q') :
    update W3 b3 x s q = update W3' b3' x' s' q' := by
  subst hW hb hx hs hq; rfl

variable (V : (c : Dev nD) → (b : Ref sig .tc) → Buf (Elt Ideal) ((c : Thread nD τ).loc b))

/-! ## The first region: all edges' messages -/

/-- Every edge's message, from the arrays in the layout the first region reads them in: the two weight blocks
    separate, each bias one row. -/
def edgeArray (xj : S800000x128.Idx → EReal) (ef : S800000x64.Idx → EReal) (A : S128x128.Idx → EReal) (B : S64x128.Idx → EReal)
    (b1 : S1x128.Idx → EReal) (W2 : S128x128.Idx → EReal) (b2 : S1x128.Idx → EReal) : S800000x128.Idx → EReal :=
  fun i => message (fun k q => A (ix2 k q)) (fun k q => B (ix2 k q)) (fun q => b1 (ix2 (0 : Fin 1) q))
    (fun k q => W2 (ix2 k q)) (fun q => b2 (ix2 (0 : Fin 1) q)) (fun k => xj (ix2 (i 0) k)) (fun k => ef (ix2 (i 0) k)) (i 1)

/-- Over the 125 points: the two windows of edge rows move with the output window along the rows; the windows
    of weights and biases stay at the origin; the output's block index along the rows runs through 0 … 124. -/
theorem idx_facts0 : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) ≤ 124 ∧ win0_7.index t (1 : Fin 2) = 0 :=
  (by decide +kernel : ∀ t : Fin grid0.N, _)

/-- Every block of rows is some point's. -/
theorem idx_onto0 : ∀ (q0 : Fin 125) (q1 : Fin 1), ∃ t : Fin cfg0.N, win0_7.index t = ![q0.val + 0, q1.val + 0] :=
  (by decide +kernel : ∀ (q0 : Fin 125) (q1 : Fin 1), ∃ t : Fin grid0.N, win0_7.index t = ![q0.val + 0, q1.val + 0])

/-- A window's block read at `(p, k)` is its array read at the row and column the block's position gives. -/
theorem read0_0 (c : Dev nD) (t : Fin cfg0.N) (p : Fin 6400) (k : Fin 128) (r : Fin 800000)
    (hr : r.val = win0_7.index t (0 : Fin 2) * 6400 + p.val) : iblk0 V c 0 t (ix2 p k) = V c main_v6 (ix2 r k) := by
  obtain ⟨e00, e01, -⟩ := idx_facts0 t
  show V c main_v6 (((cfg0.win 0).blk t).view.emb (ix2 p k)) = V c main_v6 (ix2 r k)
  refine congrArg (V c main_v6) (funext fun a => Fin.ext ?_)
  match a with
  | ⟨0, _⟩ => show win0_0.index t (0 : Fin 2) * 6400 + 1 * p.val = r.val; omega
  | ⟨1, _⟩ => show win0_0.index t (1 : Fin 2) * 128 + 1 * k.val = k.val; omega

theorem read0_1 (c : Dev nD) (t : Fin cfg0.N) (p : Fin 6400) (k : Fin 64) (r : Fin 800000)
    (hr : r.val = win0_7.index t (0 : Fin 2) * 6400 + p.val) : iblk0 V c 1 t (ix2 p k) = V c main_arg3 (ix2 r k) := by
  obtain ⟨-, -, e10, e11, -⟩ := idx_facts0 t
  show V c main_arg3 (((cfg0.win 1).blk t).view.emb (ix2 p k)) = V c main_arg3 (ix2 r k)
  refine congrArg (V c main_arg3) (funext fun a => Fin.ext ?_)
  match a with
  | ⟨0, _⟩ => show win0_1.index t (0 : Fin 2) * 6400 + 1 * p.val = r.val; omega
  | ⟨1, _⟩ => show win0_1.index t (1 : Fin 2) * 64 + 1 * k.val = k.val; omega

theorem read0_2 (c : Dev nD) (t : Fin cfg0.N) (k q : Fin 128) : iblk0 V c 2 t (ix2 k q) = V c main_v8 (ix2 k q) := by
  obtain ⟨-, -, -, -, e0, e1, -⟩ := idx_facts0 t
  show V c main_v8 (((cfg0.win 2).blk t).view.emb (ix2 k q)) = V c main_v8 (ix2 k q)
  refine congrArg (V c main_v8) (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

theorem read0_3 (c : Dev nD) (t : Fin cfg0.N) (q : Fin 128) : iblk0 V c 3 t (ix2 (0 : Fin 1) q) = V c main_v13 (ix2 (0 : Fin 1) q) := by
  obtain ⟨-, -, -, -, -, -, e0, e1, -⟩ := idx_facts0 t
  show V c main_v13 (((cfg0.win 3).blk t).view.emb (ix2 (0 : Fin 1) q)) = V c main_v13 (ix2 (0 : Fin 1) q)
  refine congrArg (V c main_v13) (funext fun a => Fin.ext ?_)
  match a with
  | ⟨0, _⟩ => show win0_3.index t (0 : Fin 2) * 1 + 1 * 0 = 0; omega
  | ⟨1, _⟩ => show win0_3.index t (1 : Fin 2) * 128 + 1 * q.val = q.val; omega

theorem read0_4 (c : Dev nD) (t : Fin cfg0.N) (k : Fin 64) (q : Fin 128) : iblk0 V c 4 t (ix2 k q) = V c main_v10 (ix2 k q) := by
  obtain ⟨-, -, -, -, -, -, -, -, e0, e1, -⟩ := idx_facts0 t
  show V c main_v10 (((cfg0.win 4).blk t).view.emb (ix2 k q)) = V c main_v10 (ix2 k q)
  refine congrArg (V c main_v10) (funext fun a => Fin.ext ?_)
  match a with
  | ⟨0, _⟩ => show win0_4.index t (0 : Fin 2) * 64 + 1 * k.val = k.val; omega
  | ⟨1, _⟩ => show win0_4.index t (1 : Fin 2) * 128 + 1 * q.val = q.val; omega

theorem read0_5 (c : Dev nD) (t : Fin cfg0.N) (k q : Fin 128) : iblk0 V c 5 t (ix2 k q) = V c main_v11 (ix2 k q) := by
  obtain ⟨-, -, -, -, -, -, -, -, -, -, e0, e1, -⟩ := idx_facts0 t
  show V c main_v11 (((cfg0.win 5).blk t).view.emb (ix2 k q)) = V c main_v11 (ix2 k q)
  refine congrArg (V c main_v11) (funext fun a => Fin.ext ?_)
  match a with
  | ⟨0, _⟩ => show win0_5.index t (0 : Fin 2) * 128 + 1 * k.val = k.val; omega
  | ⟨1, _⟩ => show win0_5.index t (1 : Fin 2) * 128 + 1 * q.val = q.val; omega

theorem read0_6 (c : Dev nD) (t : Fin cfg0.N) (q : Fin 128) : iblk0 V c 6 t (ix2 (0 : Fin 1) q) = V c main_v14 (ix2 (0 : Fin 1) q) := by
  obtain ⟨-, -, -, -, -, -, -, -, -, -, -, -, e0, e1, -⟩ := idx_facts0 t
  show V c main_v14 (((cfg0.win 6).blk t).view.emb (ix2 (0 : Fin 1) q)) = V c main_v14 (ix2 (0 : Fin 1) q)
  refine congrArg (V c main_v14) (funext fun a => Fin.ext ?_)
  match a with
  | ⟨0, _⟩ => show win0_6.index t (0 : Fin 2) * 1 + 1 * 0 = 0; omega
  | ⟨1, _⟩ => show win0_6.index t (1 : Fin 2) * 128 + 1 * q.val = q.val; omega

/-- WHAT POINT `t` WRITES BACK is block `t` of the array of all edges' messages. -/
theorem flushed0 (c : Dev nD) (t : Fin cfg0.N) :
    (dat0 V c).flushed 7 t = ((cfg0.win 7).blk t).view.read (Elt Ideal)
      (edgeArray (V c main_v6) (V c main_arg3) (V c main_v8) (V c main_v10) (V c main_v13) (V c main_v11) (V c main_v14)) := by
  show (cfg0.win 7).cut (grid0.coords t) ((dat0 V c).after 7 t) = _
  rw [after0_7]
  unfold out0_7
  rw [View.canon_unit_zero hz]
  simp only [View.ld_unit_zero (S := S6400x128) hz, View.ld_unit_zero (S := S6400x64) hz, View.ld_unit_zero (S := S128x128) hz,
    View.ld_unit_zero (S := S64x128) hz, View.ld_unit_zero (S := S1x128) hz]
  funext j
  refine (Blocks.stored_edges_at (iblk0 V c 0 t) (iblk0 V c 1 t) (iblk0 V c 2 t) (iblk0 V c 4 t) (iblk0 V c 3 t) (iblk0 V c 5 t) (iblk0 V c 6 t) j).trans ?_
  -- the block of the array read at `j` is the array at the index `j` sits at: row `6400·t + j 0`, column `j 1`
  show _ = edgeArray (V c main_v6) (V c main_arg3) (V c main_v8) (V c main_v10) (V c main_v13) (V c main_v11) (V c main_v14)
    (((cfg0.win 7).blk t).view.emb j)
  unfold edgeArray
  obtain ⟨-, -, -, -, -, -, -, -, -, -, -, -, -, -, -, e71⟩ := idx_facts0 t
  have hrow : ((((cfg0.win 7).blk t).view.emb j) 0).val = win0_7.index t (0 : Fin 2) * 6400 + (j 0).val := by
    have h : ((((cfg0.win 7).blk t).view.emb j) 0).val = win0_7.index t (0 : Fin 2) * 6400 + 1 * (j 0).val := rfl
    omega
  have hcol : ((((cfg0.win 7).blk t).view.emb j) 1).val = (j 1).val := by
    have h : ((((cfg0.win 7).blk t).view.emb j) 1).val = win0_7.index t (1 : Fin 2) * 128 + 1 * (j 1).val := rfl
    omega
  refine message_congr ?_ ?_ ?_ ?_ ?_ ?_ ?_ ?_
  · exact funext fun k => funext fun q => read0_2 V c t k q
  · exact funext fun k => funext fun q => read0_4 V c t k q
  · exact funext fun q => read0_3 V c t q
  · exact funext fun k => funext fun q => read0_5 V c t k q
  · exact funext fun q => read0_6 V c t q
  · exact funext fun k => read0_0 V c t (j 0) k _ hrow
  · exact funext fun k => read0_1 V c t (j 0) k _ hrow
  · exact Fin.ext hcol.symm

/-- An index of the output array is in point `t`'s block iff each coordinate is in the block's range. -/
theorem mem_blk0 (t : Fin cfg0.N) (i : S800000x128.Idx) :
    i ∈ ((cfg0.win 7).blk t).view.set ↔ ∀ a : Fin 2, win0_7.index t a * S6400x128.size a ≤ (i a).val ∧ (i a).val < win0_7.index t a * S6400x128.size a + S6400x128.size a := by
  show i ∈ ((View.whole main_v16).slice (win0_7.rect t)).set ↔ _
  rw [View.set_slice_whole, Rect.mem_set_unit]
  exact Iff.rfl

/-- The 125 blocks cover the 800000 rows: row `r` is in the block of the point whose index is `r / 6400`. -/
theorem cover0 (i : S800000x128.Idx) : ∃ t : Fin cfg0.N, (cfg0.win 7).flush t = true ∧ i ∈ ((cfg0.win 7).blk t).view.set := by
  have hi0 : (i 0).val < 800000 := (i 0).isLt
  have hi1 : (i 1).val < 128 := (i 1).isLt
  obtain ⟨t, ht⟩ := idx_onto0 ⟨(i 0).val / 6400, by omega⟩ ⟨(i 1).val / 128, by omega⟩
  have q0 : win0_7.index t (0 : Fin 2) = (i 0).val / 6400 + 0 := congrFun ht 0
  have q1 : win0_7.index t (1 : Fin 2) = (i 1).val / 128 + 0 := congrFun ht 1
  refine ⟨t, flush0_7 t, ?_⟩
  rw [mem_blk0]
  intro a
  match a with
  | ⟨0, _⟩ => show win0_7.index t (0 : Fin 2) * 6400 ≤ (i 0).val ∧ (i 0).val < win0_7.index t (0 : Fin 2) * 6400 + 6400; omega
  | ⟨1, _⟩ => show win0_7.index t (1 : Fin 2) * 128 ≤ (i 1).val ∧ (i 1).val < win0_7.index t (1 : Fin 2) * 128 + 128; omega

/-- THE FIRST REGION'S OUTPUT ARRAY after the region: every edge's message. -/
theorem final0 (c : Dev nD) : (dat0 V c).arrAt 7 cfg0.N
    = edgeArray (V c main_v6) (V c main_arg3) (V c main_v8) (V c main_v10) (V c main_v13) (V c main_v11) (V c main_v14) :=
  (dat0 V c).arrAt_eq_of_cover 7 _ (fun t _ => flushed0 V c t) cover0

/-! ## The second region: all nodes updated -/

/-- Every node's update, from the arrays in the layout the second region reads them in: the bias one row. -/
def nodeArray (x s : S50000x128.Idx → EReal) (W3 : S128x128.Idx → EReal) (b3 : S1x128.Idx → EReal) : S50000x128.Idx → EReal :=
  fun i => update (fun k q => W3 (ix2 k q)) (fun q => b3 (ix2 (0 : Fin 1) q)) (fun k => x (ix2 (i 0) k)) (fun k => s (ix2 (i 0) k)) (i 1)

/-- Over the 10 points: the two windows of node rows move with the output window; weights and bias stay. -/
theorem idx_facts1 : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) ≤ 9 ∧ win1_4.index t (1 : Fin 2) = 0 :=
  (by decide +kernel : ∀ t : Fin grid1.N, _)

theorem idx_onto1 : ∀ (q0 : Fin 10) (q1 : Fin 1), ∃ t : Fin cfg1.N, win1_4.index t = ![q0.val + 0, q1.val + 0] :=
  (by decide +kernel : ∀ (q0 : Fin 10) (q1 : Fin 1), ∃ t : Fin grid1.N, win1_4.index t = ![q0.val + 0, q1.val + 0])

theorem read1_0 (c : Dev nD) (t : Fin cfg1.N) (p : Fin 5000) (k : Fin 128) (r : Fin 50000)
    (hr : r.val = win1_4.index t (0 : Fin 2) * 5000 + p.val) : iblk1 V c 0 t (ix2 p k) = V c main_arg0 (ix2 r k) := by
  obtain ⟨e00, e01, -⟩ := idx_facts1 t
  show V c main_arg0 (((cfg1.win 0).blk t).view.emb (ix2 p k)) = V c main_arg0 (ix2 r k)
  refine congrArg (V c main_arg0) (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

theorem read1_1 (c : Dev nD) (t : Fin cfg1.N) (p : Fin 5000) (k : Fin 128) (r : Fin 50000)
    (hr : r.val = win1_4.index t (0 : Fin 2) * 5000 + p.val) : iblk1 V c 1 t (ix2 p k) = V c main_v20 (ix2 r k) := by
  obtain ⟨-, -, e10, e11, -⟩ := idx_facts1 t
  show V c main_v20 (((cfg1.win 1).blk t).view.emb (ix2 p k)) = V c main_v20 (ix2 r k)
  refine congrArg (V c main_v20) (funext fun a => Fin.ext ?_)
  match a with
  | ⟨0, _⟩ => show win1_1.index t (0 : Fin 2) * 5000 + 1 * p.val = r.val; omega
  | ⟨1, _⟩ => show win1_1.index t (1 : Fin 2) * 128 + 1 * k.val = k.val; omega

theorem read1_2 (c : Dev nD) (t : Fin cfg1.N) (k q : Fin 128) : iblk1 V c 2 t (ix2 k q) = V c main_v12 (ix2 k q) := by
  obtain ⟨-, -, -, -, e0, e1, -⟩ := idx_facts1 t
  show V c main_v12 (((cfg1.win 2).blk t).view.emb (ix2 k q)) = V c main_v12 (ix2 k q)
  refine congrArg (V c main_v12) (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega

theorem read1_3 (c : Dev nD) (t : Fin cfg1.N) (q : Fin 128) : iblk1 V c 3 t (ix2 (0 : Fin 1) q) = V c main_v15 (ix2 (0 : Fin 1) q) := by
  obtain ⟨-, -, -, -, -, -, e0, e1, -⟩ := idx_facts1 t
  show V c main_v15 (((cfg1.win 3).blk t).view.emb (ix2 (0 : Fin 1) q)) = V c main_v15 (ix2 (0 : Fin 1) q)
  refine congrArg (V c main_v15) (funext fun a => Fin.ext ?_)
  match a with
  | ⟨0, _⟩ => show win1_3.index t (0 : Fin 2) * 1 + 1 * 0 = 0; omega
  | ⟨1, _⟩ => show win1_3.index t (1 : Fin 2) * 128 + 1 * q.val = q.val; omega

/-- WHAT POINT `t` WRITES BACK is block `t` of the array of all nodes' updates. -/
theorem flushed1 (c : Dev nD) (t : Fin cfg1.N) :
    (dat1 V c).flushed 4 t = ((cfg1.win 4).blk t).view.read (Elt Ideal)
      (nodeArray (V c main_arg0) (V c main_v20) (V c main_v12) (V c main_v15)) := by
  show (cfg1.win 4).cut (grid1.coords t) ((dat1 V c).after 4 t) = _
  rw [after1_4]
  unfold out1_4
  rw [View.canon_unit_zero hz]
  simp only [View.ld_unit_zero (S := S5000x128) hz, View.ld_unit_zero (S := S128x128) hz, View.ld_unit_zero (S := S1x128) hz]
  funext j
  refine (Blocks.stored_nodes_at (iblk1 V c 1 t) (iblk1 V c 2 t) (iblk1 V c 3 t) (iblk1 V c 0 t) j).trans ?_
  -- the block of the array read at `j` is the array at the index `j` sits at: row `5000·t + j 0`, column `j 1`
  show _ = nodeArray (V c main_arg0) (V c main_v20) (V c main_v12) (V c main_v15) (((cfg1.win 4).blk t).view.emb j)
  unfold nodeArray
  obtain ⟨-, -, -, -, -, -, -, -, -, e41⟩ := idx_facts1 t
  have hrow : ((((cfg1.win 4).blk t).view.emb j) 0).val = win1_4.index t (0 : Fin 2) * 5000 + (j 0).val := by
    have h : ((((cfg1.win 4).blk t).view.emb j) 0).val = win1_4.index t (0 : Fin 2) * 5000 + 1 * (j 0).val := rfl
    omega
  have hcol : ((((cfg1.win 4).blk t).view.emb j) 1).val = (j 1).val := by
    have h : ((((cfg1.win 4).blk t).view.emb j) 1).val = win1_4.index t (1 : Fin 2) * 128 + 1 * (j 1).val := rfl
    omega
  refine update_congr ?_ ?_ ?_ ?_ ?_
  · exact funext fun k => funext fun q => read1_2 V c t k q
  · exact funext fun q => read1_3 V c t q
  · exact funext fun k => read1_0 V c t (j 0) k _ hrow
  · exact funext fun k => read1_1 V c t (j 0) k _ hrow
  · exact Fin.ext hcol.symm

theorem mem_blk1 (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v21).slice (win1_4.rect t)).set ↔ _
  rw [View.set_slice_whole, Rect.mem_set_unit]
  exact Iff.rfl

/-- The 10 blocks cover the 50000 rows. -/
theorem cover1 (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ := idx_onto1 ⟨(i 0).val / 5000, by omega⟩ ⟨(i 1).val / 128, by omega⟩
  have q0 : win1_4.index t (0 : Fin 2) = (i 0).val / 5000 + 0 := congrFun ht 0
  have q1 : win1_4.index t (1 : Fin 2) = (i 1).val / 128 + 0 := congrFun ht 1
  refine ⟨t, flush1_4 t, ?_⟩
  rw [mem_blk1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- THE SECOND REGION'S OUTPUT ARRAY after the region: every node's update. -/
theorem final1 (c : Dev nD) : (dat1 V c).arrAt 4 cfg1.N
    = nodeArray (V c main_arg0) (V c main_v20) (V c main_v12) (V c main_v15) :=
  (dat1 V c).arrAt_eq_of_cover 4 _ (fun t _ => flushed1 V c t) cover1

end Cert.KernelIdeal.Arrays

end
-- ==== Proof.Found.lean ====
/-
  What the two kernel regions find in the arrays they read, as functions of the program's arguments.

  Before the first region the host has: wrapped negative source-node indices round (`j ↦ j + 50000` when
  `j < 0`) and gathered, for every edge, the feature row of its source node (`gatherRows`); cut the first layer's
  192 × 128 weights into their upper 128 and lower 64 rows; changed the weights' float format, which does
  nothing to an extended real; and laid each bias vector out as one row.  So the first region finds exactly
  those, and the edge features as they were launched.

  Between the regions the host changes the first region's result back to the wide format (again nothing) and
  sums, for every node, the rows of the edges arriving at it (`scatterRows`, from an array of zeros).  So the
  second region finds that sum of what the first region wrote, beside the node features as launched, the third
  weight matrix and the third bias as one row.
-/
import proofs.«107803_j65420941853353_2_alg».proof.Proof.Gen.KernelIdeal.Frame
import Idealize.ShloMosaic.Lib.StableHlo.Run
import Idealize.ShloMosaic.PureOps.Ideal

set_option maxRecDepth 16384

noncomputable section

namespace Cert.KernelIdeal.Found

open Cert.KernelIdeal Cert.KernelIdeal.Gen
open Idealize.ShloMosaic Idealize.ShloMosaic.TcCoe Idealize.ShloMosaic.Tactic Idealize.SL.Sem Idealize.ShloMosaic.StableHlo

/-! ## The two host operations on rows that both programs share -/

/-- The source-node indices with negative ones wrapped round, as a column. -/
def wrapped (ej : S800000.Idx → BitVec 32) : S800000x1.Idx → BitVec 32 :=
  broadcastInDim S800000x1 ![0] bcast_S800000_S800000x1_0
    (select (cmpi .slt ej (broadcastInDim S800000 ![] bcast_S_S800000 (constantI S_ 32 0#32)))
      (addi ej (broadcastInDim S800000 ![] bcast_S_S800000 (constantI S_ 32 50000#32))) ej)

/-- For every edge, the feature row of its source node. -/
def gatherRows (ej : S800000.Idx → BitVec 32) (x : S50000x128.Idx → EReal) : S800000x128.Idx → EReal :=
  Host.gather gather_S50000x128_S800000x1_S800000x128_1_0_n_n_0_1_1128 x (wrapped ej)

/-- For every node, the sum of the rows of the edges arriving at it. -/
def scatterRows (ei : S800000.Idx → BitVec 32) (u : S800000x128.Idx → EReal) : S50000x128.Idx → EReal :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 ei) u

variable (m : (ℓ : Loc nD τ sig) → Buf (Elt Ideal) ℓ) (ρ : Dev nD → PrngReg) (c : Dev nD)

/-! ## What the first region finds -/

theorem src_rows : (W1 m ρ c (Proc.devRef .tc main_v6) : S800000x128.Idx → EReal)
    = gatherRows (m ((c : Thread nD τ).loc main_arg2)) (m ((c : Thread nD τ).loc main_arg0)) := by
  show StableHlo.after hostOps0 (W0 m ρ c) (Proc.devRef .tc main_v6) = _
  after_results
  all_goals rfl

theorem own_rows : W1 m ρ c (Proc.devRef .tc main_arg3) = m ((c : Thread nD τ).loc main_arg3) := by
  show StableHlo.after hostOps0 (W0 m ρ c) (Proc.devRef .tc main_arg3) = _
  after_results
  all_goals rfl

theorem upper_weights : (W1 m ρ c (Proc.devRef .tc main_v8) : S128x128.Idx → EReal)
    = truncf (F := Ideal) .bf16 (extractStridedSlice S128x128 ![0, 0] (m ((c : Thread nD τ).loc main_arg4)) slices_S192x128_S128x128_0_0) bitsLt_bf16_f32 := by
  show StableHlo.after hostOps0 (W0 m ρ c) (Proc.devRef .tc main_v8) = _
  after_results
  all_goals rfl

theorem lower_weights : (W1 m ρ c (Proc.devRef .tc main_v10) : S64x128.Idx → EReal)
    = truncf (F := Ideal) .bf16 (extractStridedSlice S64x128 ![128, 0] (m ((c : Thread nD τ).loc main_arg4)) slices_S192x128_S64x128_128_0) bitsLt_bf16_f32 := by
  show StableHlo.after hostOps0 (W0 m ρ c) (Proc.devRef .tc main_v10) = _
  after_results
  all_goals rfl

theorem second_weights : (W1 m ρ c (Proc.devRef .tc main_v11) : S128x128.Idx → EReal)
    = truncf (F := Ideal) .bf16 (φ := .f32) (m ((c : Thread nD τ).loc main_arg6)) bitsLt_bf16_f32 := by
  show StableHlo.after hostOps0 (W0 m ρ c) (Proc.devRef .tc main_v11) = _
  after_results
  all_goals rfl

theorem first_bias : (W1 m ρ c (Proc.devRef .tc main_v13) : S1x128.Idx → EReal)
    = shapeCast S1x128 (m ((c : Thread nD τ).loc main_arg5)) shapeCasts_S128_S1x128 := by
  show StableHlo.after hostOps0 (W0 m ρ c) (Proc.devRef .tc main_v13) = _
  after_results
  all_goals rfl

theorem second_bias : (W1 m ρ c (Proc.devRef .tc main_v14) : S1x128.Idx → EReal)
    = shapeCast S1x128 (m ((c : Thread nD τ).loc main_arg7)) shapeCasts_S128_S1x128 := by
  show StableHlo.after hostOps0 (W0 m ρ c) (Proc.devRef .tc main_v14) = _
  after_results
  all_goals rfl

/-! ## What the second region finds -/

/-- The first stretch's results that the first region does not write reach the second stretch unchanged. -/
theorem node_rows : W3 m ρ c (Proc.devRef .tc main_arg0) = m ((c : Thread nD τ).loc main_arg0) := by
  show StableHlo.after hostOps1 (W2 m ρ c) (Proc.devRef .tc main_arg0) = _
  after_results
  refine (W2_of_ne m ρ c main_arg0 (by decide)).trans ?_
  show StableHlo.after hostOps0 (W0 m ρ c) (Proc.devRef .tc main_arg0) = _
  after_results
  all_goals rfl

theorem third_weights : (W3 m ρ c (Proc.devRef .tc main_v12) : S128x128.Idx → EReal)
    = truncf (F := Ideal) .bf16 (φ := .f32) (m ((c : Thread nD τ).loc main_arg8)) bitsLt_bf16_f32 := by
  show StableHlo.after hostOps1 (W2 m ρ c) (Proc.devRef .tc main_v12) = _
  after_results
  refine (W2_of_ne m ρ c main_v12 (by decide)).trans ?_
  show StableHlo.after hostOps0 (W0 m ρ c) (Proc.devRef .tc main_v12) = _
  after_results
  all_goals rfl

theorem third_bias : (W3 m ρ c (Proc.devRef .tc main_v15) : S1x128.Idx → EReal)
    = shapeCast S1x128 (m ((c : Thread nD τ).loc main_arg9)) shapeCasts_S128_S1x128 := by
  show StableHlo.after hostOps1 (W2 m ρ c) (Proc.devRef .tc main_v15) = _
  after_results
  refine (W2_of_ne m ρ c main_v15 (by decide)).trans ?_
  show StableHlo.after hostOps0 (W0 m ρ c) (Proc.devRef .tc main_v15) = _
  after_results
  all_goals rfl

/-- The destination indices reach the second stretch as launched. -/
theorem dest_idx : W2 m ρ c (Proc.devRef .tc main_arg1) = m ((c : Thread nD τ).loc main_arg1) := by
  refine (W2_of_ne m ρ c main_arg1 (by decide)).trans ?_
  show StableHlo.after hostOps0 (W0 m ρ c) (Proc.devRef .tc main_arg1) = _
  after_results
  all_goals rfl

/-- The summed messages: the per-node sum of what the first region left in its output array. -/
theorem summed : (W3 m ρ c (Proc.devRef .tc main_v20) : S50000x128.Idx → EReal)
    = scatterRows (m ((c : Thread nD τ).loc main_arg1)) ((dat0 (V1 m ρ) c).arrAt 7 cfg0.N) := by
  show StableHlo.after hostOps1 (W2 m ρ c) (Proc.devRef .tc main_v20) = _
  after_results
  rw [dest_idx, show W2 m ρ c (Proc.devRef .tc main_v16) = (dat0 (V1 m ρ) c).arrAt 7 cfg0.N from W2_arr m ρ c 7]
  rfl

end Cert.KernelIdeal.Found

end
-- ==== Proof.Round.lean ====
/-
  The whole round of message passing over the full arrays.

  `messages` applies `Message.message` to every one of the 800000 edges: row `e` of the result is the message
  of the edge whose source-node features are row `e` of `xj` and whose own features are row `e` of `ef`, with
  the first layer's weights one 192 × 128 matrix `W1` (upper 128 rows against the source node, lower 64 against
  the edge) and the biases plain vectors.  `updated` applies `Message.update` to every one of the 50000 nodes.

  The round itself picks each edge's source row out of the node features and sums the messages arriving at each
  node.  Those two steps are the same two host operations in both programs compared, applied to the same index
  arrays, so they enter here as two functions that are never opened: `gatherRows` from the node features to one
  row per edge, and `scatterRows` from one row per edge to one row per node.
-/
import proofs.«107803_j65420941853353_2_alg».proof.Proof.Message
import Idealize.ShloMosaic.Lib.ValueIdx

noncomputable section

namespace Cert.Round

open Idealize.ShloMosaic Idealize.ShloMosaic.ValueIdx Cert.Message

/-- One row of 128 features per node; one row of 128, and one of 64, per edge. -/
abbrev Nodes : Shape := ⟨2, ![50000, 128]⟩
abbrev Edges : Shape := ⟨2, ![800000, 128]⟩
abbrev EdgesOwn : Shape := ⟨2, ![800000, 64]⟩
/-- The weight matrices and the bias vectors. -/
abbrev M192 : Shape := ⟨2, ![192, 128]⟩
abbrev M128 : Shape := ⟨2, ![128, 128]⟩
abbrev V128 : Shape := ⟨1, ![128]⟩

/-- Every edge's message. -/
def messages (xj : Edges.Idx → EReal) (ef : EdgesOwn.Idx → EReal) (W1 : M192.Idx → EReal) (b1 : V128.Idx → EReal)
    (W2 : M128.Idx → EReal) (b2 : V128.Idx → EReal) : Edges.Idx → EReal :=
  fun i => message (fun k q => W1 (ix2 (lo k) q)) (fun k q => W1 (ix2 (hi k) q)) (fun q => b1 (ix1 q))
    (fun k q => W2 (ix2 k q)) (fun q => b2 (ix1 q))
    (fun k => xj (ix2 (i 0) k)) (fun k => ef (ix2 (i 0) k)) (i 1)

/-- Every node's update, from its features and the sum of the messages it received. -/
def updated (x s : Nodes.Idx → EReal) (W3 : M128.Idx → EReal) (b3 : V128.Idx → EReal) : Nodes.Idx → EReal :=
  fun i => update (fun k q => W3 (ix2 k q)) (fun q => b3 (ix1 q))
    (fun k => x (ix2 (i 0) k)) (fun k => s (ix2 (i 0) k)) (i 1)

/-- The round: gather each edge's source row, compute the messages, sum them per node, update the nodes. -/
def round (gatherRows : (Nodes.Idx → EReal) → Edges.Idx → EReal) (scatterRows : (Edges.Idx → EReal) → Nodes.Idx → EReal)
    (x : Nodes.Idx → EReal) (ef : EdgesOwn.Idx → EReal) (W1 : M192.Idx → EReal) (b1 : V128.Idx → EReal)
    (W2 : M128.Idx → EReal) (b2 : V128.Idx → EReal) (W3 : M128.Idx → EReal) (b3 : V128.Idx → EReal) : Nodes.Idx → EReal :=
  updated x (scatterRows (messages (gatherRows x) ef W1 b1 W2 b2)) W3 b3

end Cert.Round

end
-- ==== Proof.KernelValue.lean ====
/-
  The kernel program's result is the round of message passing over its arguments.

  The first region reads the first layer's weights as two arrays cut from the 192 × 128 matrix on the host (its
  rows 0 … 127 and its rows 128 … 191), reads each bias as a one-row array, and reads the weights in a narrower
  float format, which is the same extended real.  Entry `(k, q)` of the upper cut is entry `(k, q)` of the
  matrix, entry `(k, q)` of the lower cut is entry `(128 + k, q)`, and entry `(0, q)` of a bias laid out as one
  row is entry `q` of the bias.  So the array the first region leaves (`Arrays.final0`) is `Round.messages` of
  the gathered source rows, the edge features and the first two layers' weights and biases; the array the second
  region leaves (`Arrays.final1`) is `Round.updated` of the node features and of those messages summed per
  node; and that array is the program's result buffer at the last boundary.
-/
import proofs.«107803_j65420941853353_2_alg».proof.Proof.Arrays
import proofs.«107803_j65420941853353_2_alg».proof.Proof.Found
import proofs.«107803_j65420941853353_2_alg».proof.Proof.Round
import Idealize.ShloMosaic.Lib.ValueLayout

set_option maxRecDepth 16384

noncomputable section

namespace Cert.KernelIdeal.Result

open Cert.KernelIdeal Cert.KernelIdeal.Gen Cert.Message
open Idealize.ShloMosaic Idealize.ShloMosaic.TcCoe Idealize.SL.Sem Idealize.ShloMosaic.ValueIdx

/-- Every edge's message from the cut, reformatted and one-row arrays is `Round.messages` from the originals. -/
theorem edgeArray_eq (xj : S800000x128.Idx → EReal) (ef : S800000x64.Idx → EReal) (W1 : S192x128.Idx → EReal)
    (b1 : S128.Idx → EReal) (W2 : S128x128.Idx → EReal) (b2 : S128.Idx → EReal) :
    Arrays.edgeArray xj ef
      (truncf (F := Ideal) .bf16 (extractStridedSlice S128x128 ![0, 0] W1 slices_S192x128_S128x128_0_0) bitsLt_bf16_f32)
      (truncf (F := Ideal) .bf16 (extractStridedSlice S64x128 ![128, 0] W1 slices_S192x128_S64x128_128_0) bitsLt_bf16_f32)
      (shapeCast S1x128 b1 shapeCasts_S128_S1x128)
      (truncf (F := Ideal) .bf16 (φ := .f32) W2 bitsLt_bf16_f32)
      (shapeCast S1x128 b2 shapeCasts_S128_S1x128)
    = Cert.Round.messages xj ef W1 b1 W2 b2 := by
  funext i
  unfold Arrays.edgeArray Cert.Round.messages
  refine Arrays.message_congr ?_ ?_ ?_ ?_ ?_ rfl rfl rfl
  · exact funext fun k => funext fun q =>
      slice2_axis0_apply 0 W1 slices_S192x128_S128x128_0_0 k q (lo k) (by rw [lo_val, Nat.zero_add])
  · exact funext fun k => funext fun q =>
      slice2_axis0_apply 128 W1 slices_S192x128_S64x128_128_0 k q (hi k) (hi_val k)
  · exact funext fun q => shapeCast_a_1a_apply b1 shapeCasts_S128_S1x128 (0 : Fin 1) q
  · rfl
  · exact funext fun q => shapeCast_a_1a_apply b2 shapeCasts_S128_S1x128 (0 : Fin 1) q

/-- Every node's update from the reformatted weights and the one-row bias is `Round.updated` from the originals. -/
theorem nodeArray_eq (x s : S50000x128.Idx → EReal) (W3 : S128x128.Idx → EReal) (b3 : S128.Idx → EReal) :
    Arrays.nodeArray x s (truncf (F := Ideal) .bf16 (φ := .f32) W3 bitsLt_bf16_f32) (shapeCast S1x128 b3 shapeCasts_S128_S1x128)
      = Cert.Round.updated x s W3 b3 := by
  funext i
  unfold Arrays.nodeArray Cert.Round.updated
  refine Arrays.update_congr rfl ?_ rfl rfl rfl
  exact funext fun q => shapeCast_a_1a_apply b3 shapeCasts_S128_S1x128 (0 : Fin 1) q

variable (m : (ℓ : Loc nD τ sig) → Buf (Elt Ideal) ℓ) (ρ : Dev nD → PrngReg) (c : Dev nD)

/-- What the first region leaves in its output array: every edge's message. -/
theorem messages_left : (dat0 (V1 m ρ) c).arrAt 7 cfg0.N
    = Cert.Round.messages (Found.gatherRows (m ((c : Thread nD τ).loc main_arg2)) (m ((c : Thread nD τ).loc main_arg0))) (m ((c : Thread nD τ).loc main_arg3))
        (m ((c : Thread nD τ).loc main_arg4)) (m ((c : Thread nD τ).loc main_arg5)) (m ((c : Thread nD τ).loc main_arg6)) (m ((c : Thread nD τ).loc main_arg7)) := by
  refine (Arrays.final0 (V1 m ρ) c).trans ?_
  have e6 : V1 m ρ c main_v6 = Found.gatherRows (m ((c : Thread nD τ).loc main_arg2)) (m ((c : Thread nD τ).loc main_arg0)) := Found.src_rows m ρ c
  have e3 : V1 m ρ c main_arg3 = (m ((c : Thread nD τ).loc main_arg3)) := Found.own_rows m ρ c
  have e8 := Found.upper_weights m ρ c
  have e10 := Found.lower_weights m ρ c
  have e13 := Found.first_bias m ρ c
  have e11 := Found.second_weights m ρ c
  have e14 := Found.second_bias m ρ c
  rw [e6, e3, show V1 m ρ c main_v8 = _ from e8, show V1 m ρ c main_v10 = _ from e10, show V1 m ρ c main_v13 = _ from e13,
    show V1 m ρ c main_v11 = _ from e11, show V1 m ρ c main_v14 = _ from e14]
  exact edgeArray_eq _ _ _ _ _ _

/-- THE KERNEL PROGRAM'S RESULT BUFFER at the last boundary: the round of message passing over the arguments. -/
theorem result : (W4 m ρ c (Proc.devRef .tc main_v21) : S50000x128.Idx → EReal)
    = Cert.Round.round (Found.gatherRows (m ((c : Thread nD τ).loc main_arg2))) (Found.scatterRows (m ((c : Thread nD τ).loc main_arg1)))
        (m ((c : Thread nD τ).loc main_arg0)) (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) := by
  refine (W4_arr m ρ c 4).trans ?_
  refine (Arrays.final1 (V3 m ρ) c).trans ?_
  have e0 : V3 m ρ c main_arg0 = (m ((c : Thread nD τ).loc main_arg0)) := Found.node_rows m ρ c
  have e20 := Found.summed m ρ c
  have e12 := Found.third_weights m ρ c
  have e15 := Found.third_bias m ρ c
  rw [e0, show V3 m ρ c main_v20 = _ from e20, show V3 m ρ c main_v12 = _ from e12, show V3 m ρ c main_v15 = _ from e15,
    messages_left m ρ c]
  exact nodeArray_eq _ _ _ _

end Cert.KernelIdeal.Result

end
-- ==== Proof.LibStack.lean ====
/-
  Two matrices joined into one, read at an entry given by its coordinates, for any extents.

  Side by side (`[a, b₁]` and `[a, b₂]` joined along the last axis into `[a, t]`): a column below `b₁` reads the left
  matrix at that column, a column `b₁ + k` reads the right matrix at column `k` (`beside_left`, `beside_right`).
  One above the other (`[a₁, b]` and `[a₂, b]` joined along the first axis into `[t, b]`): a row below `a₁` reads the
  upper matrix, a row `a₁ + k` the lower one at row `k` (`above_top`, `above_bottom`).
  The joined extent `t` and the coordinate in it are separate variables tied by an equation between naturals, so the
  lemmas apply to a literal extent such as 128 with pieces of 64 without any arithmetic in a type.
-/
import Idealize.ShloMosaic.Lib.Pipeline.Value
import Idealize.ShloMosaic.Lib.ValueIdx

noncomputable section

namespace Cert.LibStack

open Idealize.ShloMosaic Idealize.ShloMosaic.ValueIdx

variable {α : Type}

/-- Side by side, a column among the first `b₁`: the left matrix at the same row and column. -/
theorem beside_left {a b₁ b₂ t : ℕ} (x : (⟨2, ![a, b₁]⟩ : Shape).Idx → α) (y : (⟨2, ![a, b₂]⟩ : Shape).Idx → α)
    (h : Shape.Concatenates [(⟨2, ![a, b₁]⟩ : Shape), ⟨2, ![a, b₂]⟩] ⟨2, ![a, t]⟩ 1)
    (p : Fin a) (k : Fin b₁) (k' : Fin t) (hk : k'.val = k.val) :
    concatenate ⟨2, ![a, t]⟩ 1 [⟨⟨2, ![a, b₁]⟩, x⟩, ⟨⟨2, ![a, b₂]⟩, y⟩] h (ix2 p k') = x (ix2 p k) :=
  concatenate_pair_apply_left 1 x y h (ix2 p k') rfl (ix2 p k) fun b => by
    match b with
    | ⟨0, _⟩ => rfl
    | ⟨1, _⟩ => exact hk.symm

/-- Side by side, column `b₁ + k`: the right matrix at the same row and column `k`. -/
theorem beside_right {a b₁ b₂ t : ℕ} (x : (⟨2, ![a, b₁]⟩ : Shape).Idx → α) (y : (⟨2, ![a, b₂]⟩ : Shape).Idx → α)
    (h : Shape.Concatenates [(⟨2, ![a, b₁]⟩ : Shape), ⟨2, ![a, b₂]⟩] ⟨2, ![a, t]⟩ 1)
    (p : Fin a) (k : Fin b₂) (k' : Fin t) (hk : k'.val = k.val + b₁) :
    concatenate ⟨2, ![a, t]⟩ 1 [⟨⟨2, ![a, b₁]⟩, x⟩, ⟨⟨2, ![a, b₂]⟩, y⟩] h (ix2 p k') = y (ix2 p k) :=
  concatenate_pair_apply_right 1 x y h (ix2 p k') rfl rfl (ix2 p k)
    (fun b hb => by
      match b with
      | ⟨0, _⟩ => rfl
      | ⟨1, _⟩ => exact absurd rfl hb)
    (by show k.val + b₁ = k'.val; exact hk.symm)

/-- One above the other, a row among the first `a₁`: the upper matrix at the same row and column. -/
theorem above_top {a₁ a₂ b t : ℕ} (x : (⟨2, ![a₁, b]⟩ : Shape).Idx → α) (y : (⟨2, ![a₂, b]⟩ : Shape).Idx → α)
    (h : Shape.Concatenates [(⟨2, ![a₁, b]⟩ : Shape), ⟨2, ![a₂, b]⟩] ⟨2, ![t, b]⟩ 0)
    (k : Fin a₁) (k' : Fin t) (q : Fin b) (hk : k'.val = k.val) :
    concatenate ⟨2, ![t, b]⟩ 0 [⟨⟨2, ![a₁, b]⟩, x⟩, ⟨⟨2, ![a₂, b]⟩, y⟩] h (ix2 k' q) = x (ix2 k q) :=
  concatenate_pair_apply_left 0 x y h (ix2 k' q) rfl (ix2 k q) fun b => by
    match b with
    | ⟨0, _⟩ => exact hk.symm
    | ⟨1, _⟩ => rfl

/-- One above the other, row `a₁ + k`: the lower matrix at row `k` and the same column. -/
theorem above_bottom {a₁ a₂ b t : ℕ} (x : (⟨2, ![a₁, b]⟩ : Shape).Idx → α) (y : (⟨2, ![a₂, b]⟩ : Shape).Idx → α)
    (h : Shape.Concatenates [(⟨2, ![a₁, b]⟩ : Shape), ⟨2, ![a₂, b]⟩] ⟨2, ![t, b]⟩ 0)
    (k : Fin a₂) (k' : Fin t) (q : Fin b) (hk : k'.val = k.val + a₁) :
    concatenate ⟨2, ![t, b]⟩ 0 [⟨⟨2, ![a₁, b]⟩, x⟩, ⟨⟨2, ![a₂, b]⟩, y⟩] h (ix2 k' q) = y (ix2 k q) :=
  concatenate_pair_apply_right 0 x y h (ix2 k' q) rfl rfl (ix2 k q)
    (fun b hb => by
      match b with
      | ⟨0, _⟩ => exact absurd rfl hb
      | ⟨1, _⟩ => rfl)
    (by show k.val + a₁ = k'.val; exact hk.symm)

end Cert.LibStack

end
-- ==== Proof.LibSilu.lean ====
/-
  `silu z = z · 1 / (1 + e^{-z})` on the extended reals, in the two spellings programs use.

  * A kernel's vector unit multiplies a vector by its logistic, entry by entry: entry `i` of `x · logistic x` is
    `x i · logistic (x i)` (`vector_form`).
  * The host expands the logistic into negate, exponential, add and divide, and writes the number one as the
    f32 literal `0x3F800000`: `z · (one / (one + exp (−z)))` is `z · logistic z` (`host_spelling`), since that
    literal is the number one and the host's negation, exponential, sum and quotient are the extended reals'.
  Both hold at every extended real, the infinities included.
-/
import Idealize.ShloMosaic.PureOps.Ideal
import Idealize.ShloMosaic.Lib.IdealHost

noncomputable section

namespace Cert.LibSilu

open Idealize.ShloMosaic

/-- The vector unit's `x · logistic x` at entry `i`. -/
theorem vector_form {s : Shape} (x : FVec Ideal s .f32) (i : s.Idx) :
    mulf x (logistic x) i = x i * Ideal.logistic (x i) := rfl

/-- The host's `z · (one / (one + exp (−z)))`, with both ones the f32 literal for one. -/
theorem host_spelling (z : Ideal .f32) :
    FloatOps.mulf z (FloatOps.hostDivf (FloatOps.ofBits .f32 0x3F800000#32)
      (FloatOps.addf (FloatOps.ofBits .f32 0x3F800000#32) (FloatOps.hostUnary .exp (FloatOps.hostNegf z))))
      = z * Ideal.logistic z := by
  show z * Ideal.div (Ideal.ofBits .f32 0x3F800000#32) (Ideal.ofBits .f32 0x3F800000#32 + Ideal.exp (-z))
    = z * Ideal.div 1 (1 + Ideal.exp (-z))
  rw [Ideal.ofBits_one_f32]

end Cert.LibSilu

end
-- ==== Proof.RefStages.lean ====
/-
  The reference program's result, read stage by stage down to `Round.round`.

  The reference joins each edge's source-node row and its own row into ONE row of 192 numbers and multiplies it
  with the whole 192 × 128 matrix; that sum over 192 products is `Message.mix` of the two parts with the matrix's
  upper 128 and lower 64 rows (`Message.mix_of_joined`).  It spells `silu z` as `z · (1 / (1 + exp (−z)))` with
  the number one written as a float literal, which is the number one; and it adds the node features, the
  product with the third matrix and the third bias from the left, `(x + Σ) + b`, which is `Message.update`'s
  `x + (Σ + b)` (`Message.update_left`).  Biases are broadcast over the rows through a one-row array.  Nothing
  else separates its stages from `Round.messages` and `Round.updated`.

  The gather of the source rows and the sum of the messages per node are kept as two functions, `gatherRows`
  and `scatterRows`, and never opened.
-/
import proofs.«107803_j65420941853353_2_alg».proof.Proof.Gen.ReferenceIdeal.Read
import proofs.«107803_j65420941853353_2_alg».proof.Proof.Round
import proofs.«107803_j65420941853353_2_alg».proof.Proof.LibStack
import proofs.«107803_j65420941853353_2_alg».proof.Proof.LibSilu

set_option maxRecDepth 16384

noncomputable section

namespace Cert.ReferenceIdeal.Stages

open Cert.ReferenceIdeal Cert.ReferenceIdeal.Gen Cert.ReferenceIdeal.Read
open Idealize.ShloMosaic Idealize.ShloMosaic.ValueIdx Cert.Message
open scoped BigOperators

/-! ## The two host operations on rows -/

/-- For every edge, the feature row of its source node (negative indices wrapped round first). -/
def gatherRows (ej : S800000.Idx → BitVec 32) (x : S50000x128.Idx → EReal) : S800000x128.Idx → EReal :=
  val_main_v6 (F := Ideal) x ej

/-- For every node, the sum of the rows of the edges arriving at it. -/
def scatterRows (ei : S800000.Idx → BitVec 32) (u : S800000x128.Idx → EReal) : S50000x128.Idx → EReal :=
  Host.scatterAdd (F := Ideal) (φ := .f32) scatter_S50000x128_S800000x1_S800000x128_1_0_0_1 (val_main_v18 (F := Ideal)) (val_main_v19 (F := Ideal) ei) u

/-! ## `silu` as the host spells it -/

/-- `z · (1 / (1 + exp (−z)))` with both ones written as the float literal for one is `silu z`. -/
theorem silu_spelt (z : Ideal .f32) :
    FloatOps.mulf z (FloatOps.hostDivf (FloatOps.ofBits .f32 0x3F800000#32)
      (FloatOps.addf (FloatOps.ofBits .f32 0x3F800000#32) (FloatOps.hostUnary .exp (FloatOps.hostNegf z)))) = silu z :=
  Cert.LibSilu.host_spelling z

variable (x0 : (⟨S50000x128, .f32⟩ : BufTy).Contents (Elt Ideal)) (x1 x2 : (⟨S800000, .i32⟩ : BufTy).Contents (Elt Ideal)) (x3 : (⟨S800000x64, .f32⟩ : BufTy).Contents (Elt Ideal))
  (x4 : (⟨S192x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal))
  (x8 : (⟨S128x128, .f32⟩ : BufTy).Contents (Elt Ideal)) (x9 : (⟨S128, .f32⟩ : BufTy).Contents (Elt Ideal))

/-! ## The indices the stages read their operands at -/

theorem idxL8 (e : Fin 800000) (q : Fin 128) (k : Fin 192) : lidx_main_v8 (ix2 e q) k = ix2 e k :=
  funext fun a => Fin.ext (by match a with | ⟨0, _⟩ => rfl | ⟨1, _⟩ => rfl)
theorem idxR8 (e : Fin 800000) (q : Fin 128) (k : Fin 192) : ridx_main_v8 (ix2 e q) k = ix2 k q :=
  funext fun a => Fin.ext (by match a with | ⟨0, _⟩ => rfl | ⟨1, _⟩ => rfl)
theorem idxB10 (e : Fin 800000) (q : Fin 128) : idx_main_v9 (idx_main_v10 (ix2 e q)) = ix1 q :=
  funext fun a => Fin.ext (by match a with | ⟨0, _⟩ => rfl)
theorem idxL13 (e : Fin 800000) (q : Fin 128) (k : Fin 128) : lidx_main_v13 (ix2 e q) k = ix2 e k :=
  funext fun a => Fin.ext (by match a with | ⟨0, _⟩ => rfl | ⟨1, _⟩ => rfl)
theorem idxR13 (e : Fin 800000) (q : Fin 128) (k : Fin 128) : ridx_main_v13 (ix2 e q) k = ix2 k q :=
  funext fun a => Fin.ext (by match a with | ⟨0, _⟩ => rfl | ⟨1, _⟩ => rfl)
theorem idxB15 (e : Fin 800000) (q : Fin 128) : idx_main_v14 (idx_main_v15 (ix2 e q)) = ix1 q :=
  funext fun a => Fin.ext (by match a with | ⟨0, _⟩ => rfl)
theorem idxL21 (n : Fin 50000) (q : Fin 128) (k : Fin 128) : lidx_main_v21 (ix2 n q) k = ix2 n k :=
  funext fun a => Fin.ext (by match a with | ⟨0, _⟩ => rfl | ⟨1, _⟩ => rfl)
theorem idxR21 (n : Fin 50000) (q : Fin 128) (k : Fin 128) : ridx_main_v21 (ix2 n q) k = ix2 k q :=
  funext fun a => Fin.ext (by match a with | ⟨0, _⟩ => rfl | ⟨1, _⟩ => rfl)
theorem idxB24 (n : Fin 50000) (q : Fin 128) : idx_main_v23 (idx_main_v24 (ix2 n q)) = ix1 q :=
  funext fun a => Fin.ext (by match a with | ⟨0, _⟩ => rfl)

/-! ## The first layer -/

/-- The joined row of 192 numbers is the source node's row on its first 128 entries … -/
theorem joined_lo (e : Fin 800000) (k : Fin 128) :
    val_main_v7 (F := Ideal) x0 x2 x3 (ix2 e (lo k)) = val_main_v6 (F := Ideal) x0 x2 (ix2 e k) := by
  unfold val_main_v7
  exact Cert.LibStack.beside_left _ _ _ e k (lo k) rfl

/-- … and the edge's own row on its last 64. -/
theorem joined_hi (e : Fin 800000) (k : Fin 64) :
    val_main_v7 (F := Ideal) x0 x2 x3 (ix2 e (hi k)) = x3 (ix2 e k) := by
  unfold val_main_v7
  exact Cert.LibStack.beside_right _ _ _ e k (hi k) (by show 128 + k.val = k.val + 128; omega)

/-- The first layer before `silu`, for edge `e` at hidden unit `q`. -/
theorem mix_stage (e : Fin 800000) (q : Fin 128) :
    val_main_v11 (F := Ideal) x0 x2 x3 x4 x5 (ix2 e q)
      = mix (fun k q => x4 (ix2 (lo k) q)) (fun k q => x4 (ix2 (hi k) q))
          (fun k => val_main_v6 (F := Ideal) x0 x2 (ix2 e k)) (fun k => x3 (ix2 e k)) q + x5 (ix1 q) := by
  rw [val_main_v11_apply, val_main_v8_apply, val_main_v10_apply, val_main_v9_apply]
  simp only [idxL8, idxR8, idxB10]
  show (∑ k : Fin 192, val_main_v7 (F := Ideal) x0 x2 x3 (ix2 e k) * x4 (ix2 k q)) + x5 (ix1 q) = _
  refine congrArg (· + x5 (ix1 q)) ?_
  exact mix_of_joined (fun k q => x4 (ix2 k q)) (fun k => val_main_v6 (F := Ideal) x0 x2 (ix2 e k)) (fun k => x3 (ix2 e k))
    (fun k => val_main_v7 (F := Ideal) x0 x2 x3 (ix2 e k)) (fun k => joined_lo x0 x2 x3 e k) (fun k => joined_hi x0 x2 x3 e k) q

/-- The hidden layer is `silu` of that. -/
theorem hidden_stage (i : S800000x128.Idx) :
    val_main_v12 (F := Ideal) x0 x2 x3 x4 x5 i = silu (val_main_v11 (F := Ideal) x0 x2 x3 x4 x5 i) := by
  rw [val_main_v12_apply, val_main_call0_v5_apply, val_main_call0_v4_apply, val_main_call0_cst_0_apply,
    val_main_call0_v3_apply, val_main_call0_v2_apply, val_main_call0_cst_apply, val_main_call0_v1_apply,
    val_main_call0_v0_apply]
  exact silu_spelt _

/-! ## The second layer -/

theorem layer2_stage (e : Fin 800000) (q : Fin 128) :
    val_main_v16 (F := Ideal) x0 x2 x3 x4 x5 x6 x7 (ix2 e q)
      = ∑ k : Fin 128, val_main_v12 (F := Ideal) x0 x2 x3 x4 x5 (ix2 e k) * x6 (ix2 k q) + x7 (ix1 q) := by
  rw [val_main_v16_apply, val_main_v13_apply, val_main_v15_apply, val_main_v14_apply]
  simp only [idxL13, idxR13, idxB15]
  rfl

theorem out_stage (i : S800000x128.Idx) :
    val_main_v17 (F := Ideal) x0 x2 x3 x4 x5 x6 x7 i = silu (val_main_v16 (F := Ideal) x0 x2 x3 x4 x5 x6 x7 i) := by
  rw [val_main_v17_apply, val_main_call1_v5_apply, val_main_call1_v4_apply, val_main_call1_cst_0_apply,
    val_main_call1_v3_apply, val_main_call1_v2_apply, val_main_call1_cst_apply, val_main_call1_v1_apply,
    val_main_call1_v0_apply]
  exact silu_spelt _

/-- THE MESSAGE of edge `e` at `q`, as the reference computes it. -/
theorem message_stage (e : Fin 800000) (q : Fin 128) :
    val_main_v17 (F := Ideal) x0 x2 x3 x4 x5 x6 x7 (ix2 e q)
      = message (fun k q => x4 (ix2 (lo k) q)) (fun k q => x4 (ix2 (hi k) q)) (fun q => x5 (ix1 q))
          (fun k q => x6 (ix2 k q)) (fun q => x7 (ix1 q))
          (fun k => val_main_v6 (F := Ideal) x0 x2 (ix2 e k)) (fun k => x3 (ix2 e k)) q := by
  rw [out_stage, layer2_stage]
  unfold message
  refine congrArg silu (congrArg (· + x7 (ix1 q)) (Finset.sum_congr rfl fun k _ => ?_))
  rw [hidden_stage, mix_stage]
  rfl

/-- All edges' messages. -/
theorem messages_eq :
    val_main_v17 (F := Ideal) x0 x2 x3 x4 x5 x6 x7 = Cert.Round.messages (gatherRows x2 x0) x3 x4 x5 x6 x7 := by
  funext i
  obtain ⟨e, q, rfl⟩ : ∃ (e : Fin 800000) (q : Fin 128), i = ix2 e q := ⟨i 0, i 1, eq_ix2 i⟩
  exact message_stage x0 x2 x3 x4 x5 x6 x7 e q

/-! ## The node update -/

theorem final_stage (i : S50000x128.Idx) :
    val_main_v26 (F := Ideal) x0 x1 x2 x3 x4 x5 x6 x7 x8 x9 i
      = silu (val_main_v25 (F := Ideal) x0 x1 x2 x3 x4 x5 x6 x7 x8 x9 i) := by
  rw [val_main_v26_apply, val_main_call2_v5_apply, val_main_call2_v4_apply, val_main_call2_cst_0_apply,
    val_main_call2_v3_apply, val_main_call2_v2_apply, val_main_call2_cst_apply, val_main_call2_v1_apply,
    val_main_call2_v0_apply]
  exact silu_spelt _

/-- THE UPDATE of node `n` at `q`, as the reference computes it, from the summed messages. -/
theorem update_stage (n : Fin 50000) (q : Fin 128) :
    val_main_v26 (F := Ideal) x0 x1 x2 x3 x4 x5 x6 x7 x8 x9 (ix2 n q)
      = update (fun k q => x8 (ix2 k q)) (fun q => x9 (ix1 q)) (fun k => x0 (ix2 n k))
          (fun k => val_main_v20 (F := Ideal) x0 x1 x2 x3 x4 x5 x6 x7 (ix2 n k)) q := by
  rw [final_stage, val_main_v25_apply, val_main_v22_apply, val_main_v21_apply, val_main_v24_apply, val_main_v23_apply]
  simp only [idxL21, idxR21, idxB24]
  exact update_left (fun k q => x8 (ix2 k q)) (fun q => x9 (ix1 q)) (fun k => x0 (ix2 n k))
    (fun k => val_main_v20 (F := Ideal) x0 x1 x2 x3 x4 x5 x6 x7 (ix2 n k)) q

/-- All nodes updated. -/
theorem updated_eq :
    val_main_v26 (F := Ideal) x0 x1 x2 x3 x4 x5 x6 x7 x8 x9
      = Cert.Round.updated x0 (val_main_v20 (F := Ideal) x0 x1 x2 x3 x4 x5 x6 x7) x8 x9 := by
  funext i
  obtain ⟨n, q, rfl⟩ : ∃ (n : Fin 50000) (q : Fin 128), i = ix2 n q := ⟨i 0, i 1, eq_ix2 i⟩
  exact update_stage x0 x1 x2 x3 x4 x5 x6 x7 x8 x9 n q

/-! ## The whole round -/

/-- THE REFERENCE'S RESULT is the round of message passing over its arguments. -/
theorem result_eq :
    val_main_v26 (F := Ideal) x0 x1 x2 x3 x4 x5 x6 x7 x8 x9
      = Cert.Round.round (gatherRows x2) (scatterRows x1) x0 x3 x4 x5 x6 x7 x8 x9 := by
  have h20 : val_main_v20 (F := Ideal) x0 x1 x2 x3 x4 x5 x6 x7
      = scatterRows x1 (Cert.Round.messages (gatherRows x2 x0) x3 x4 x5 x6 x7) := by
    unfold val_main_v20 scatterRows
    rw [messages_eq]
  rw [updated_eq, h20]
  rfl

end Cert.ReferenceIdeal.Stages

end
-- ==== Proof.lean ====
/-
  One round of message passing on a graph with 50000 nodes (128 features each) and 800000 edges (64 features
  each): the kernel program and the reference program compute, on the extended reals, the same function of
  their ten arguments.

  Both gather, for every edge, the feature row of its source node; turn that row and the edge's own row into a
  message by a two-layer perceptron with `silu z = z · 1 / (1 + e^{-z})` after each layer; sum the messages
  arriving at each node; and update the node to `silu` of its features plus a linear image of that sum plus a
  bias (`Round.round`, over `Message.message` and `Message.update`).

  They differ in three ways, none of which changes an extended real.  The kernel feeds the first layer with the
  source row and the edge's row SEPARATELY, against the upper 128 and the lower 64 rows of the first weight
  matrix, where the reference joins the two rows into one of 192 entries and uses the whole matrix: a sum over
  192 products is the sum of its first 128 and its last 64.  The kernel adds bias and linear image first and the
  node's features after, `x + (Σ + b)`, where the reference adds from the left, `(x + Σ) + b`: addition is
  associative.  And the kernel stores weights and messages in a narrower float format, which on extended reals
  is the identity.  Neither fact needs the inputs to be finite, so the precondition is never opened.

  How each side is read: the kernel program runs as host operations, a first kernel region over blocks of 6400
  edges, host operations, and a second kernel region over blocks of 5000 nodes (`KernelRun`); what the regions
  find in their input arrays (`Found`), what each body stores at an entry of its block (`Blocks`) and the blocks
  put together (`Arrays`) give the result buffer as `Round.round` of the arguments (`KernelValue`).  The
  reference program is host operations only; its result, read one operation at a time, is the same
  `Round.round` (`RefStages`).  The row gather and the per-node sum are the same two host operations in both
  programs, applied to the same index arrays, and are never opened.

  The three frame claims are the programs' runs with the result forgotten; no operation of the kernel was
  rewritten when it was idealized, so there is nothing to preserve.
-/
import proofs.«107803_j65420941853353_2_alg».proof.Defs
import proofs.«107803_j65420941853353_2_alg».proof.Proof.Gen.Kernel
import proofs.«107803_j65420941853353_2_alg».proof.Proof.Gen.Kernel.Frame
import proofs.«107803_j65420941853353_2_alg».proof.Proof.Gen.KernelIdeal
import proofs.«107803_j65420941853353_2_alg».proof.Proof.Gen.KernelIdeal.Frame
import proofs.«107803_j65420941853353_2_alg».proof.Proof.Gen.ReferenceIdeal
import proofs.«107803_j65420941853353_2_alg».proof.Proof.Gen.ReferenceIdeal.Run
import proofs.«107803_j65420941853353_2_alg».proof.Proof.Gen.ReferenceIdeal.Read
import proofs.«107803_j65420941853353_2_alg».proof.Proof.Gen.Pre_finite_inputs
import proofs.«107803_j65420941853353_2_alg».proof.Proof.KernelRun
import proofs.«107803_j65420941853353_2_alg».proof.Proof.KernelValue
import proofs.«107803_j65420941853353_2_alg».proof.Proof.RefStages
import Idealize.ShloMosaic.Adequacy
import Idealize.ShloMosaic.Init

set_option maxRecDepth 16384

noncomputable section

namespace Cert.Proof

open Idealize.ShloMosaic Idealize.SL.Sem

/-- The row gather is one host operation, printed once in each program. -/
theorem gather_same : Cert.ReferenceIdeal.Stages.gatherRows = Cert.KernelIdeal.Found.gatherRows := rfl

/-- So is the per-node sum of rows. -/
theorem scatter_same : Cert.ReferenceIdeal.Stages.scatterRows = Cert.KernelIdeal.Found.scatterRows := rfl

/-! ## The frames -/

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-! ## The idealization rewrote nothing -/

theorem preserves : Cert.preserves_Kernel_KernelIdeal := trivial

/-! ## Equal results -/

/-- From memories agreeing on the arguments both programs end with the round of message passing over those
    arguments in their result buffer, and with the arguments unchanged. -/
theorem algebraic : Cert.algebraic_KernelIdeal_ReferenceIdeal := by
  intro m ρ m' ρ' _ hagree
  refine ⟨fun c => Cert.Round.round (Cert.KernelIdeal.Found.gatherRows (m ((c.tc : Thread Cert.KernelIdeal.nD Cert.KernelIdeal.τ).loc Cert.KernelIdeal.main_arg2)))
      (Cert.KernelIdeal.Found.scatterRows (m ((c.tc : Thread Cert.KernelIdeal.nD Cert.KernelIdeal.τ).loc Cert.KernelIdeal.main_arg1)))
      (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Result.result m ρ c), (h c).2⟩)
      (Cert.KernelIdeal.Whole.run (F := Ideal) m ρ)
  · refine (θ_run Cert.ReferenceIdeal.defs _ _).mono (fun r h c => ⟨?_, (h c).2⟩)
      (Cert.ReferenceIdeal.Value.run (F := Ideal) m' ρ')
    obtain ⟨a0, a1, a2, a3, a4, a5, a6, a7, a8, a9⟩ := hagree c
    rw [(h c).1, Cert.ReferenceIdeal.Read.val_main_v26_eq, Cert.ReferenceIdeal.Stages.result_eq,
      a0, a1, a2, a3, a4, a5, a6, a7, a8, a9, gather_same, scatter_same]

/-! ## The claim -/

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
